-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128x16 : Shape := ⟨4, ![8, 2048, 128, 16]⟩
abbrev S1x1 : Shape := ⟨2, ![1, 1]⟩
abbrev S1 : Shape := ⟨1, ![1]⟩
abbrev S4x4 : Shape := ⟨2, ![4, 4]⟩
abbrev S4 : Shape := ⟨1, ![4]⟩
abbrev S6x6 : Shape := ⟨2, ![6, 6]⟩
abbrev S6 : Shape := ⟨1, ![6]⟩
abbrev S_ : Shape := ⟨0, ![]⟩

class Facts : Prop where
  bcast_S_S8x2048x128x16 : S_.BroadcastsInDim S8x2048x128x16 (![] : Fin 0 → Fin S8x2048x128x16.rank)
  reducesTo_S8x2048x128x16_S_d0_1_2_3 : S8x2048x128x16.ReducesTo [0, 1, 2, 3] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S6x6 : S_.BroadcastsInDim S6x6 (![] : Fin 0 → Fin S6x6.rank)
  reducesTo_S6x6_S_d0_1 : S6x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg7 : FVec F S4x4 .f32) (main_arg8 : FVec F S4 .f32) (main_arg9 : FVec F S1x1 .f32) (main_arg10 : FVec F S1 .f32) (main_v33 : IVec S_ 1) : IVec S_ 1 :=
  let main_v34 : FVec F S4x4 .f32 := Host.absf main_arg7
  let main_cst_12 : FVec F S_ .f32 := constant S_ .f32 0x7F800000#32
  let main_v35 : FVec F S4x4 .f32 := broadcastInDim S4x4 ![] bcast_S_S4x4 main_cst_12
  let main_v36 : IVec S4x4 1 := cmpf .olt main_v34 main_v35
  let main_c_13 : IVec S_ 1 := constantI S_ 1 1#1
  let main_v37 : IVec S_ 1 := (fun x v => Host.reduce IntOp.andi x v reducesTo_S4x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  let main_v49 : FVec F S1 .f32 := Host.absf main_arg10
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg4 : FVec F S4 .f32) (main_arg5 : FVec F S6x6 .f32) (main_arg6 : FVec F S6 .f32) (main_arg7 : FVec F S4x4 .f32) (main_arg8 : FVec F S4 .f32) (main_arg9 : FVec F S1x1 .f32) (main_arg10 : FVec F S1 .f32) (main_v13 : IVec S_ 1) (main_v16 : IVec S4x4 1) : IVec S_ 1 :=
  let main_c_5 : IVec S_ 1 := constantI S_ 1 1#1
  let main_v17 : IVec S_ 1 := (fun x v => Host.reduce IntOp.andi x v reducesTo_S4x4_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S6x6 .f32 := Host.absf main_arg5
  let main_cst_8 : FVec F S_ .f32 := constant S_ .f32 0x7F800000#32
  let main_v25 : FVec F S6x6 .f32 := broadcastInDim S6x6 ![] bcast_S_S6x6 main_cst_8
  let main_v26 : IVec S6x6 1 := cmpf .olt main_v24 main_v25
  let main_c_9 : IVec S_ 1 := constantI S_ 1 1#1
  let main_v27 : IVec S_ 1 := (fun x v => Host.reduce IntOp.andi x v reducesTo_S6x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x2048x128x16 .f32) (main_arg1 : FVec F S1x1 .f32) (main_arg2 : FVec F S1 .f32) (main_arg3 : FVec F S4x4 .f32) (main_arg4 : FVec F S4 .f32) (main_arg5 : FVec F S6x6 .f32) (main_arg6 : FVec F S6 .f32) (main_arg7 : FVec F S4x4 .f32) (main_arg8 : FVec F S4 .f32) (main_arg9 : FVec F S1x1 .f32) (main_arg10 : FVec F S1 .f32) : IVec S_ 1 :=
  let main_v0 : FVec F S8x2048x128x16 .f32 := Host.absf main_arg0
  let main_cst : FVec F S_ .f32 := constant S_ .f32 0x7F800000#32
  let main_v1 : FVec F S8x2048x128x16 .f32 := broadcastInDim S8x2048x128x16 ![] bcast_S_S8x2048x128x16 main_cst
  let main_v2 : IVec S8x2048x128x16 1 := cmpf .olt main_v0 main_v1
  let main_c : IVec S_ 1 := constantI S_ 1 1#1
  let main_v3 : IVec S_ 1 := (fun x v => Host.reduce IntOp.andi x v reducesTo_S8x2048x128x16_S_d0_1_2_3 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S4x4 .f32 := Host.absf main_arg3
  let main_cst_4 : FVec F S_ .f32 := constant S_ .f32 0x7F800000#32
  let main_v15 : FVec F S4x4 .f32 := broadcastInDim S4x4 ![] bcast_S_S4x4 main_cst_4
  let main_v16 : IVec S4x4 1 := cmpf .olt main_v14 main_v15
  fn_part1 (F := F) main_arg4 main_arg5 main_arg6 main_arg7 main_arg8 main_arg9 main_arg10 main_v13 main_v16
-- ==== Kernel.lean ====
abbrev S8x2048x128x16 : Shape := ⟨4, ![8, 2048, 128, 16]⟩
abbrev S1x1 : Shape := ⟨2, ![1, 1]⟩
abbrev S1 : Shape := ⟨1, ![1]⟩
abbrev S4x4 : Shape := ⟨2, ![4, 4]⟩
abbrev S4 : Shape := ⟨1, ![4]⟩
abbrev S6x6 : Shape := ⟨2, ![6, 6]⟩
abbrev S6 : Shape := ⟨1, ![6]⟩
abbrev S_ : Shape := ⟨0, ![]⟩
abbrev S16x16 : Shape := ⟨2, ![16, 16]⟩
abbrev S2 : Shape := ⟨1, ![2]⟩
abbrev S16 : Shape := ⟨1, ![16]⟩
abbrev S8x8 : Shape := ⟨2, ![8, 8]⟩
abbrev S8x1x8x1 : Shape := ⟨4, ![8, 1, 8, 1]⟩
abbrev S1x16x1x16 : Shape := ⟨4, ![1, 16, 1, 16]⟩
abbrev S8x16x8x16 : Shape := ⟨4, ![8, 16, 8, 16]⟩
abbrev S128x128 : Shape := ⟨2, ![128, 128]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S262144x128 : Shape := ⟨2, ![262144, 128]⟩
abbrev S8192x128 : Shape := ⟨2, ![8192, 128]⟩

abbrev nBuf : Space → Nat
  | .hbm => 69
  | .vmem => 6
  | .smem => 0
  | _ => 0

abbrev bufTy : (tb : Table) → Fin (tcTables nBuf tb) → BufTy
  | .hbm, ⟨0, _⟩ => ⟨S8x2048x128x16, .f32⟩
  | .hbm, ⟨1, _⟩ => ⟨S1x1, .f32⟩
  | .hbm, ⟨2, _⟩ => ⟨S1, .f32⟩
  | .hbm, ⟨3, _⟩ => ⟨S4x4, .f32⟩
  | .hbm, ⟨4, _⟩ => ⟨S4, .f32⟩
  | .hbm, ⟨5, _⟩ => ⟨S6x6, .f32⟩
  | .hbm, ⟨6, _⟩ => ⟨S6, .f32⟩
  | .hbm, ⟨7, _⟩ => ⟨S4x4, .f32⟩
  | .hbm, ⟨8, _⟩ => ⟨S4, .f32⟩
  | .hbm, ⟨9, _⟩ => ⟨S1x1, .f32⟩
  | .hbm, ⟨10, _⟩ => ⟨S1, .f32⟩
  | .hbm, ⟨11, _⟩ => ⟨S_, .f32⟩
  | .hbm, ⟨12, _⟩ => ⟨S16x16, .f32⟩
  | .hbm, ⟨13, _⟩ => ⟨S1x1, .f32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S1, .i32⟩
  | .hbm, ⟨18, _⟩ => ⟨S2, .i32⟩
  | .hbm, ⟨19, _⟩ => ⟨S16x16, .f32⟩
  | .hbm, ⟨20, _⟩ => ⟨S4x4, .f32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S2, .i32⟩
  | .hbm, ⟨26, _⟩ => ⟨S16x16, .f32⟩
  | .hbm, ⟨27, _⟩ => ⟨S6x6, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S16x16, .f32⟩
  | .hbm, ⟨34, _⟩ => ⟨S4x4, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S16x16, .f32⟩
  | .hbm, ⟨41, _⟩ => ⟨S1x1, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S16x16, .f32⟩
  | .hbm, ⟨48, _⟩ => ⟨S16, .f32⟩
  | .hbm, ⟨49, _⟩ => ⟨S8x8, .i32⟩
  | .hbm, ⟨50, _⟩ => ⟨S8x8, .i32⟩
  | .hbm, ⟨51, _⟩ => ⟨S_, .i32⟩
  | .hbm, ⟨52, _⟩ => ⟨S8x8, .i32⟩
  | .hbm, ⟨53, _⟩ => ⟨S8x8, .i32⟩
  | .hbm, ⟨54, _⟩ => ⟨S8x8, .i1⟩
  | .hbm, ⟨55, _⟩ => ⟨S8x8, .f32⟩
  | .hbm, ⟨56, _⟩ => ⟨S8x1x8x1, .f32⟩
  | .hbm, ⟨57, _⟩ => ⟨S1x16x1x16, .f32⟩
  | .hbm, ⟨58, _⟩ => ⟨S8x16x8x16, .f32⟩
  | .hbm, ⟨59, _⟩ => ⟨S8x16x8x16, .f32⟩
  | .hbm, ⟨60, _⟩ => ⟨S8x16x8x16, .f32⟩
  | .hbm, ⟨61, _⟩ => ⟨S128x128, .f32⟩
  | .hbm, ⟨62, _⟩ => ⟨S1x16, .f32⟩
  | .hbm, ⟨63, _⟩ => ⟨S8x16, .f32⟩
  | .hbm, ⟨64, _⟩ => ⟨S128, .f32⟩
  | .hbm, ⟨65, _⟩ => ⟨S1x128, .f32⟩
  | .hbm, ⟨66, _⟩ => ⟨S262144x128, .f32⟩
  | .hbm, ⟨67, _⟩ => ⟨S262144x128, .f32⟩
  | .hbm, ⟨68, _⟩ => ⟨S8x2048x128x16, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S8x2048x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_c_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_c_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S16x16 : S_.BroadcastsInDim S16x16 (![] : Fin 0 → Fin S16x16.rank)
  transposes_S1x1_S1x1_1_0 : S1x1.Transposes [1, 0] S1x1
  bcast_S_S1 : S_.BroadcastsInDim S1 (![] : Fin 0 → Fin S1.rank)
  concatenates_S1_S1_S2_d0 : Shape.Concatenates [S1, S1] S2 0
  transposes_S4x4_S4x4_1_0 : S4x4.Transposes [1, 0] S4x4
  transposes_S6x6_S6x6_1_0 : S6x6.Transposes [1, 0] S6x6
  concatenates_S1_S4_S6_S4_S1_S16_d0 : Shape.Concatenates [S1, S4, S6, S4, S1] S16 0
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S16x16_S1x16x1x16_1_3 : S16x16.BroadcastsInDim S1x16x1x16 (![1, 3] : Fin 2 → Fin S1x16x1x16.rank)
  bcast_S8x1x8x1_S8x16x8x16_0_1_2_3 : S8x1x8x1.BroadcastsInDim S8x16x8x16 (![0, 1, 2, 3] : Fin 4 → Fin S8x16x8x16.rank)
  bcast_S1x16x1x16_S8x16x8x16_0_1_2_3 : S1x16x1x16.BroadcastsInDim S8x16x8x16 (![0, 1, 2, 3] : Fin 4 → Fin S8x16x8x16.rank)
  shapeCasts_S8x16x8x16_S128x128 : S8x16x8x16.ShapeCasts S128x128
  shapeCasts_S16_S1x16 : S16.ShapeCasts S1x16
  bcast_S1x16_S8x16_0_1 : S1x16.BroadcastsInDim S8x16 (![0, 1] : Fin 2 → Fin S8x16.rank)
  shapeCasts_S8x16_S128 : S8x16.ShapeCasts S128
  shapeCasts_S128_S1x128 : S128.ShapeCasts S1x128
  shapeCasts_S8x2048x128x16_S262144x128 : S8x2048x128x16.ShapeCasts S262144x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  shapeCasts_S262144x128_S8x2048x128x16 : S262144x128.ShapeCasts S8x2048x128x16
  scatter_S16x16_S2_S1x1_01_n_01_0_wf : ScatterDims.WF S16x16 S2 S1x1 [0, 1] [] [0, 1] 0
  scatter_S16x16_S2_S4x4_01_n_01_0_wf : ScatterDims.WF S16x16 S2 S4x4 [0, 1] [] [0, 1] 0
  scatter_S16x16_S2_S6x6_01_n_01_0_wf : ScatterDims.WF S16x16 S2 S6x6 [0, 1] [] [0, 1] 0
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S262144x128.size a
  hwx0_3 : ∀ i : grid0.Coords, EltTy.bits .f32 = 32 ∨ (Rect.block (s := S262144x128) S8192x128.size (cc0_transform_3 i) (hinb0_3 i)).WholeWords (EltTy.packing .f32)

variable [Facts₀]

def scatter_S16x16_S2_S1x1_01_n_01_0 : ScatterDims S16x16 S2 S1x1 where
  updateWindowDims := [0, 1]
  insertedWindowDims := []
  scatterDimsToOperandDims := [0, 1]
  indexVectorDim := 0
  wf := scatter_S16x16_S2_S1x1_01_n_01_0_wf
def scatter_S16x16_S2_S4x4_01_n_01_0 : ScatterDims S16x16 S2 S4x4 where
  updateWindowDims := [0, 1]
  insertedWindowDims := []
  scatterDimsToOperandDims := [0, 1]
  indexVectorDim := 0
  wf := scatter_S16x16_S2_S4x4_01_n_01_0_wf
def scatter_S16x16_S2_S6x6_01_n_01_0 : ScatterDims S16x16 S2 S6x6 where
  updateWindowDims := [0, 1]
  insertedWindowDims := []
  scatterDimsToOperandDims := [0, 1]
  indexVectorDim := 0
  wf := scatter_S16x16_S2_S6x6_01_n_01_0_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v38) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128x16 : Shape := ⟨4, ![8, 2048, 128, 16]⟩
abbrev S1x1 : Shape := ⟨2, ![1, 1]⟩
abbrev S1 : Shape := ⟨1, ![1]⟩
abbrev S4x4 : Shape := ⟨2, ![4, 4]⟩
abbrev S4 : Shape := ⟨1, ![4]⟩
abbrev S6x6 : Shape := ⟨2, ![6, 6]⟩
abbrev S6 : Shape := ⟨1, ![6]⟩
abbrev S8x2048x128x1 : Shape := ⟨4, ![8, 2048, 128, 1]⟩
abbrev S1x1x1x1 : Shape := ⟨4, ![1, 1, 1, 1]⟩
abbrev S8x2048x128x4 : Shape := ⟨4, ![8, 2048, 128, 4]⟩
abbrev S1x1x1x4 : Shape := ⟨4, ![1, 1, 1, 4]⟩
abbrev S8x2048x128x6 : Shape := ⟨4, ![8, 2048, 128, 6]⟩
abbrev S1x1x1x6 : Shape := ⟨4, ![1, 1, 1, 6]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x128x16, .f32⟩
  | .hbm, ⟨1, _⟩ => ⟨S1x1, .f32⟩
  | .hbm, ⟨2, _⟩ => ⟨S1, .f32⟩
  | .hbm, ⟨3, _⟩ => ⟨S4x4, .f32⟩
  | .hbm, ⟨4, _⟩ => ⟨S4, .f32⟩
  | .hbm, ⟨5, _⟩ => ⟨S6x6, .f32⟩
  | .hbm, ⟨6, _⟩ => ⟨S6, .f32⟩
  | .hbm, ⟨7, _⟩ => ⟨S4x4, .f32⟩
  | .hbm, ⟨8, _⟩ => ⟨S4, .f32⟩
  | .hbm, ⟨9, _⟩ => ⟨S1x1, .f32⟩
  | .hbm, ⟨10, _⟩ => ⟨S1, .f32⟩
  | .hbm, ⟨11, _⟩ => ⟨S8x2048x128x1, .f32⟩
  | .hbm, ⟨12, _⟩ => ⟨S8x2048x128x1, .f32⟩
  | .hbm, ⟨13, _⟩ => ⟨S1x1x1x1, .f32⟩
  | .hbm, ⟨14, _⟩ => ⟨S8x2048x128x1, .f32⟩
  | .hbm, ⟨15, _⟩ => ⟨S8x2048x128x1, .f32⟩
  | .hbm, ⟨16, _⟩ => ⟨S8x2048x128x4, .f32⟩
  | .hbm, ⟨17, _⟩ => ⟨S8x2048x128x4, .f32⟩
  | .hbm, ⟨18, _⟩ => ⟨S1x1x1x4, .f32⟩
  | .hbm, ⟨19, _⟩ => ⟨S8x2048x128x4, .f32⟩
  | .hbm, ⟨20, _⟩ => ⟨S8x2048x128x4, .f32⟩
  | .hbm, ⟨21, _⟩ => ⟨S8x2048x128x6, .f32⟩
  | .hbm, ⟨22, _⟩ => ⟨S8x2048x128x6, .f32⟩
  | .hbm, ⟨23, _⟩ => ⟨S1x1x1x6, .f32⟩
  | .hbm, ⟨24, _⟩ => ⟨S8x2048x128x6, .f32⟩
  | .hbm, ⟨25, _⟩ => ⟨S8x2048x128x6, .f32⟩
  | .hbm, ⟨26, _⟩ => ⟨S8x2048x128x4, .f32⟩
  | .hbm, ⟨27, _⟩ => ⟨S8x2048x128x4, .f32⟩
  | .hbm, ⟨28, _⟩ => ⟨S1x1x1x4, .f32⟩
  | .hbm, ⟨29, _⟩ => ⟨S8x2048x128x4, .f32⟩
  | .hbm, ⟨30, _⟩ => ⟨S8x2048x128x4, .f32⟩
  | .hbm, ⟨31, _⟩ => ⟨S8x2048x128x1, .f32⟩
  | .hbm, ⟨32, _⟩ => ⟨S8x2048x128x1, .f32⟩
  | .hbm, ⟨33, _⟩ => ⟨S1x1x1x1, .f32⟩
  | .hbm, ⟨34, _⟩ => ⟨S8x2048x128x1, .f32⟩
  | .hbm, ⟨35, _⟩ => ⟨S8x2048x128x1, .f32⟩
  | .hbm, ⟨36, _⟩ => ⟨S8x2048x128x16, .f32⟩
  | _, _ => ⟨S8x2048x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  slices_S8x2048x128x16_S8x2048x128x1_0_0_0_0 : S8x2048x128x16.Slices ![0, 0, 0, 0] S8x2048x128x1
  bcast_S1_S1x1x1x1_3 : S1.BroadcastsInDim S1x1x1x1 (![3] : Fin 1 → Fin S1x1x1x1.rank)
  bcast_S1x1x1x1_S8x2048x128x1_0_1_2_3 : S1x1x1x1.BroadcastsInDim S8x2048x128x1 (![0, 1, 2, 3] : Fin 4 → Fin S8x2048x128x1.rank)
  slices_S8x2048x128x16_S8x2048x128x4_0_0_0_1 : S8x2048x128x16.Slices ![0, 0, 0, 1] S8x2048x128x4
  bcast_S4_S1x1x1x4_3 : S4.BroadcastsInDim S1x1x1x4 (![3] : Fin 1 → Fin S1x1x1x4.rank)
  bcast_S1x1x1x4_S8x2048x128x4_0_1_2_3 : S1x1x1x4.BroadcastsInDim S8x2048x128x4 (![0, 1, 2, 3] : Fin 4 → Fin S8x2048x128x4.rank)
  slices_S8x2048x128x16_S8x2048x128x6_0_0_0_5 : S8x2048x128x16.Slices ![0, 0, 0, 5] S8x2048x128x6
  bcast_S6_S1x1x1x6_3 : S6.BroadcastsInDim S1x1x1x6 (![3] : Fin 1 → Fin S1x1x1x6.rank)
  bcast_S1x1x1x6_S8x2048x128x6_0_1_2_3 : S1x1x1x6.BroadcastsInDim S8x2048x128x6 (![0, 1, 2, 3] : Fin 4 → Fin S8x2048x128x6.rank)
  slices_S8x2048x128x16_S8x2048x128x4_0_0_0_11 : S8x2048x128x16.Slices ![0, 0, 0, 11] S8x2048x128x4
  slices_S8x2048x128x16_S8x2048x128x1_0_0_0_15 : S8x2048x128x16.Slices ![0, 0, 0, 15] S8x2048x128x1
  concatenates_S8x2048x128x1_S8x2048x128x4_S8x2048x128x6_S8x2048x128x4_S8x2048x128x1_S8x2048x128x16_d3 : Shape.Concatenates [S8x2048x128x1, S8x2048x128x4, S8x2048x128x6, S8x2048x128x4, S8x2048x128x1] S8x2048x128x16 3
  dot_S8x2048x128x1_S1x1_S8x2048x128x1_3_1_012_0_n_n_wf : DotDims.WF S8x2048x128x1 S1x1 S8x2048x128x1 [3] [1] [0, 1, 2] [0] [] []
  dot_S8x2048x128x4_S4x4_S8x2048x128x4_3_1_012_0_n_n_wf : DotDims.WF S8x2048x128x4 S4x4 S8x2048x128x4 [3] [1] [0, 1, 2] [0] [] []
  dot_S8x2048x128x6_S6x6_S8x2048x128x6_3_1_012_0_n_n_wf : DotDims.WF S8x2048x128x6 S6x6 S8x2048x128x6 [3] [1] [0, 1, 2] [0] [] []

variable [Facts₀]

def dot_S8x2048x128x1_S1x1_S8x2048x128x1_3_1_012_0_n_n : DotDims S8x2048x128x1 S1x1 S8x2048x128x1 where
  lhsContracting := [3]
  rhsContracting := [1]
  lhsNonContracting := [0, 1, 2]
  rhsNonContracting := [0]
  lhsBatch := []
  rhsBatch := []
  wf := dot_S8x2048x128x1_S1x1_S8x2048x128x1_3_1_012_0_n_n_wf
def dot_S8x2048x128x4_S4x4_S8x2048x128x4_3_1_012_0_n_n : DotDims S8x2048x128x4 S4x4 S8x2048x128x4 where
  lhsContracting := [3]
  rhsContracting := [1]
  lhsNonContracting := [0, 1, 2]
  rhsNonContracting := [0]
  lhsBatch := []
  rhsBatch := []
  wf := dot_S8x2048x128x4_S4x4_S8x2048x128x4_3_1_012_0_n_n_wf
def dot_S8x2048x128x6_S6x6_S8x2048x128x6_3_1_012_0_n_n : DotDims S8x2048x128x6 S6x6 S8x2048x128x6 where
  lhsContracting := [3]
  rhsContracting := [1]
  lhsNonContracting := [0, 1, 2]
  rhsNonContracting := [0]
  lhsBatch := []
  rhsBatch := []
  wf := dot_S8x2048x128x6_S6x6_S8x2048x128x6_3_1_012_0_n_n_wf

class Facts : Prop extends Facts₀ where

variable [Facts]
-- ==== Proof.KernelFrame.lean ====
/-
  THE FRAME of `Kernel`: every weakly fair execution of @main terminates without a fault and leaves the eleven argument
  arrays as launched — and, for the value claim, every array of the one pallas_call after the run is NAMED.

  @main is three stretches of host operations (the block-diagonal 16×16 matrix written block by block into zeros, the
  8×8 identity, their Kronecker product as a called function, the tiled bias, the array re-laid as 262144 rows of 128), the
  region, and one reshape after it. The region's grid has 32 points; at point `t` the body reads block `t` of the rows
  (8192 × 128), the whole 128 × 128 matrix and the 1 × 128 bias, and overwrites block `t` of the result with ONE store of the
  whole block. So after the body the output's staging buffer holds the store's value, a function of the three input
  blocks (`out3`), whatever it held before; the inputs' buffers are only read. The host operations write fresh buffers
  only, never an argument.
-/
import proofs.«162412_j34892314313418_2_alg».proof.Proof.Gen.Kernel.Launch
import proofs.«162412_j34892314313418_2_alg».proof.Proof.Gen.Kernel.Skeleton
import proofs.«162412_j34892314313418_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, all three stretches in order. -/
abbrev pre : List (List (HloOp τ sig (Elt F))) := [hostOps0, hostOps0_1, hostOps0_2]

/-- Core `c`'s buffers when the region is entered: the launch contents after the host operations before it. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape after it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- A buffer no host operation before the region writes is found by the region as launched. -/
theorem V_of_unwritten (c : Dev nD) (b : Ref sig .tc)
    (hb : ∀ op ∈ (List.flatten pre : List (HloOp τ sig (Elt F))), Proc.devRef .tc b ∉ op.writes) :
    V m c b = m ((c : Thread nD τ).loc b) :=
  StableHlo.after_of_forall_not_mem (b := Proc.devRef .tc b) _ _ hb

/-- The same after the region, through the reshape that follows it, for a buffer that is no array of the pipeline. -/
theorem W_of_unwritten (dats : (p : Fin _) → (c : Dev nD) → Dat τ (Elt F) Unit ℕ (UR sig nD τ) ℕ (cfgs p) c) (c : Dev nD)
    (b : Ref sig .tc) (hb : ∀ op ∈ (List.flatten pre : List (HloOp τ sig (Elt F))), Proc.devRef .tc b ∉ op.writes)
    (hb1 : ∀ op ∈ (List.flatten [hostOps1] : List (HloOp τ sig (Elt F))), Proc.devRef .tc b ∉ op.writes)
    (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ hb1,
    Pipeline.withArrays_of_ne _ c (V0 m c) _ b hne]
  exact V_of_unwritten m c b hb

/-- No host operation writes `main_arg0`. -/
theorem pre_keeps_arg0 : ∀ op ∈ (List.flatten pre : List (HloOp τ sig (Elt F))), Proc.devRef .tc main_arg0 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg0 : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg0 (c : Dev nD) : V m c main_arg0 = m ((c : Thread nD τ).loc main_arg0) :=
  V_of_unwritten m c main_arg0 (pre_keeps_arg0)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of_unwritten m dats c main_arg0 (pre_keeps_arg0) (tail_keeps_arg0) (by decide)

/-- No host operation writes `main_arg1`. -/
theorem pre_keeps_arg1 : ∀ op ∈ (List.flatten pre : List (HloOp τ sig (Elt F))), Proc.devRef .tc main_arg1 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg1 : ∀ op ∈ (List.flatten [hostOps1] : List (HloOp τ sig (Elt F))), Proc.devRef .tc main_arg1 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg1 (c : Dev nD) : V m c main_arg1 = m ((c : Thread nD τ).loc main_arg1) :=
  V_of_unwritten m c main_arg1 (pre_keeps_arg1)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_unwritten m dats c main_arg1 (pre_keeps_arg1) (tail_keeps_arg1) (by decide)

/-- No host operation writes `main_arg2`. -/
theorem pre_keeps_arg2 : ∀ op ∈ (List.flatten pre : List (HloOp τ sig (Elt F))), Proc.devRef .tc main_arg2 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg2 : ∀ op ∈ (List.flatten [hostOps1] : List (HloOp τ sig (Elt F))), Proc.devRef .tc main_arg2 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg2 (c : Dev nD) : V m c main_arg2 = m ((c : Thread nD τ).loc main_arg2) :=
  V_of_unwritten m c main_arg2 (pre_keeps_arg2)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of_unwritten m dats c main_arg2 (pre_keeps_arg2) (tail_keeps_arg2) (by decide)

/-- No host operation writes `main_arg3`. -/
theorem pre_keeps_arg3 : ∀ op ∈ (List.flatten pre : List (HloOp τ sig (Elt F))), Proc.devRef .tc main_arg3 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg3 : ∀ op ∈ (List.flatten [hostOps1] : List (HloOp τ sig (Elt F))), Proc.devRef .tc main_arg3 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg3 (c : Dev nD) : V m c main_arg3 = m ((c : Thread nD τ).loc main_arg3) :=
  V_of_unwritten m c main_arg3 (pre_keeps_arg3)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_of_unwritten m dats c main_arg3 (pre_keeps_arg3) (tail_keeps_arg3) (by decide)

/-- No host operation writes `main_arg4`. -/
theorem pre_keeps_arg4 : ∀ op ∈ (List.flatten pre : List (HloOp τ sig (Elt F))), Proc.devRef .tc main_arg4 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg4 : ∀ op ∈ (List.flatten [hostOps1] : List (HloOp τ sig (Elt F))), Proc.devRef .tc main_arg4 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg4 (c : Dev nD) : V m c main_arg4 = m ((c : Thread nD τ).loc main_arg4) :=
  V_of_unwritten m c main_arg4 (pre_keeps_arg4)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of_unwritten m dats c main_arg4 (pre_keeps_arg4) (tail_keeps_arg4) (by decide)

/-- No host operation writes `main_arg5`. -/
theorem pre_keeps_arg5 : ∀ op ∈ (List.flatten pre : List (HloOp τ sig (Elt F))), Proc.devRef .tc main_arg5 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg5 : ∀ op ∈ (List.flatten [hostOps1] : List (HloOp τ sig (Elt F))), Proc.devRef .tc main_arg5 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg5 (c : Dev nD) : V m c main_arg5 = m ((c : Thread nD τ).loc main_arg5) :=
  V_of_unwritten m c main_arg5 (pre_keeps_arg5)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_of_unwritten m dats c main_arg5 (pre_keeps_arg5) (tail_keeps_arg5) (by decide)

/-- No host operation writes `main_arg6`. -/
theorem pre_keeps_arg6 : ∀ op ∈ (List.flatten pre : List (HloOp τ sig (Elt F))), Proc.devRef .tc main_arg6 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg6 : ∀ op ∈ (List.flatten [hostOps1] : List (HloOp τ sig (Elt F))), Proc.devRef .tc main_arg6 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg6 (c : Dev nD) : V m c main_arg6 = m ((c : Thread nD τ).loc main_arg6) :=
  V_of_unwritten m c main_arg6 (pre_keeps_arg6)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_of_unwritten m dats c main_arg6 (pre_keeps_arg6) (tail_keeps_arg6) (by decide)

/-- No host operation writes `main_arg7`. -/
theorem pre_keeps_arg7 : ∀ op ∈ (List.flatten pre : List (HloOp τ sig (Elt F))), Proc.devRef .tc main_arg7 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg7 : ∀ op ∈ (List.flatten [hostOps1] : List (HloOp τ sig (Elt F))), Proc.devRef .tc main_arg7 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg7 (c : Dev nD) : V m c main_arg7 = m ((c : Thread nD τ).loc main_arg7) :=
  V_of_unwritten m c main_arg7 (pre_keeps_arg7)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  W_of_unwritten m dats c main_arg7 (pre_keeps_arg7) (tail_keeps_arg7) (by decide)

/-- No host operation writes `main_arg8`. -/
theorem pre_keeps_arg8 : ∀ op ∈ (List.flatten pre : List (HloOp τ sig (Elt F))), Proc.devRef .tc main_arg8 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg8 : ∀ op ∈ (List.flatten [hostOps1] : List (HloOp τ sig (Elt F))), Proc.devRef .tc main_arg8 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg8 (c : Dev nD) : V m c main_arg8 = m ((c : Thread nD τ).loc main_arg8) :=
  V_of_unwritten m c main_arg8 (pre_keeps_arg8)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_of_unwritten m dats c main_arg8 (pre_keeps_arg8) (tail_keeps_arg8) (by decide)

/-- No host operation writes `main_arg9`. -/
theorem pre_keeps_arg9 : ∀ op ∈ (List.flatten pre : List (HloOp τ sig (Elt F))), Proc.devRef .tc main_arg9 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg9 : ∀ op ∈ (List.flatten [hostOps1] : List (HloOp τ sig (Elt F))), Proc.devRef .tc main_arg9 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg9 (c : Dev nD) : V m c main_arg9 = m ((c : Thread nD τ).loc main_arg9) :=
  V_of_unwritten m c main_arg9 (pre_keeps_arg9)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  W_of_unwritten m dats c main_arg9 (pre_keeps_arg9) (tail_keeps_arg9) (by decide)

/-- No host operation writes `main_arg10`. -/
theorem pre_keeps_arg10 : ∀ op ∈ (List.flatten pre : List (HloOp τ sig (Elt F))), Proc.devRef .tc main_arg10 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg10 : ∀ op ∈ (List.flatten [hostOps1] : List (HloOp τ sig (Elt F))), Proc.devRef .tc main_arg10 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg10 (c : Dev nD) : V m c main_arg10 = m ((c : Thread nD τ).loc main_arg10) :=
  V_of_unwritten m c main_arg10 (pre_keeps_arg10)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  W_of_unwritten m dats c main_arg10 (pre_keeps_arg10) (tail_keeps_arg10) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the rows' block is
    fetched at every point; the matrix and the bias once, and their block index never moves), for any proof data whose
    array is `V`'s and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output window's buffer -/

abbrev rRows : Rect S8192x128 := Rect.unit (s := S8192x128) ![0, 0] S8192x128.size inb_S8192x128_S8192x128_0_0
abbrev rMat : Rect S128x128 := Rect.unit (s := S128x128) ![0, 0] S128x128.size inb_S128x128_S128x128_0_0
abbrev rBias : Rect S1x128 := Rect.unit (s := S1x128) ![0, 0] S1x128.size inb_S1x128_S1x128_0_0

/-- The output window's staging buffer after the body, from the three input blocks: its one store of the whole block. -/
def out3 (x0 : Vec F S8192x128 .f32) (x1 : Vec F S128x128 .f32) (x2 : Vec F S1x128 .f32) : Vec F S8192x128 .f32 :=
  View.canon [⟨rRows, k0_pay1 (View.ld x0 rRows) (View.ld x1 rMat) (View.ld x2 rBias)⟩]

/-- The store covers the buffer. -/
theorem cover3 (p0 : Vec F S8192x128 .f32) (y : S8192x128.Idx) :
    ∃ pc ∈ ([⟨rRows, p0⟩] : List (View.Piece (Elt F) S8192x128 .f32)), y ∈ pc.1.set :=
  View.cover_of_tiled [⟨rRows, p0⟩] S8192x128.size (by rfl) y

/-! ## The body's triple -/

set_option maxHeartbeats 1000000 in
/-- The kernel body on whole staging memrefs, the inputs' at contents `x0 x1 x2` and the output's at anything, runs to the
    continuation holding the inputs' as they were and the output's at `out3 x0 x1 x2`. -/
theorem sound_kernel (c : Dev nD) (E : Set ℕ) (i : grid0.Coords)
    (arg1 : Memref sig .tc .vmem S8192x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S8192x128 .f32) (harg4 : arg4.IsWhole)
    (x0 : Vec F S8192x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__grade_linear_kernel i arg1 harg1 arg2 harg2 arg3 harg3 arg4 harg4) K := by
  simp only [cc0__grade_linear_kernel_eq_skeleton]; unfold cc0__grade_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the pipeline on core `c`: the arrays as the region finds them; after the body at point `t` each
    input's buffer at its block and the output's at `out3` of the three input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = out3 (iblk m c 0 t) (iblk m c 1 t) (iblk m c 2 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the pipeline
    at what the proof data computes and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩)
    (run_main m ρ)

end Cert.Kernel.Hand

end
-- ==== Proof.KernelIdealFrame.lean ====
/-
  THE FRAME of `KernelIdeal`: every weakly fair execution of @main terminates without a fault and leaves the eleven argument
  arrays as launched — and, for the value claim, every array of the one pallas_call after the run is NAMED.

  @main is three stretches of host operations (the block-diagonal 16×16 matrix written block by block into zeros, the
  8×8 identity, their Kronecker product as a called function, the tiled bias, the array re-laid as 262144 rows of 128), the
  region, and one reshape after it. The region's grid has 32 points; at point `t` the body reads block `t` of the rows
  (8192 × 128), the whole 128 × 128 matrix and the 1 × 128 bias, and overwrites block `t` of the result with ONE store of the
  whole block. So after the body the output's staging buffer holds the store's value, a function of the three input
  blocks (`out3`), whatever it held before; the inputs' buffers are only read. The host operations write fresh buffers
  only, never an argument.
-/
import proofs.«162412_j34892314313418_2_alg».proof.Proof.Gen.KernelIdeal.Launch
import proofs.«162412_j34892314313418_2_alg».proof.Proof.Gen.KernelIdeal.Skeleton
import proofs.«162412_j34892314313418_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, all three stretches in order. -/
abbrev pre : List (List (HloOp τ sig (Elt F))) := [hostOps0, hostOps0_1, hostOps0_2]

/-- Core `c`'s buffers when the region is entered: the launch contents after the host operations before it. -/
abbrev V0 (c : Dev nD) : Valuation τ sig (Elt F) := StableHlo.after (List.flatten pre) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the reshape after it, the buffers at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main pre [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-- The reshape after the region touches the pipeline's arrays and the bypassing buffers only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array of the pipeline (only its own result buffer). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- A buffer no host operation before the region writes is found by the region as launched. -/
theorem V_of_unwritten (c : Dev nD) (b : Ref sig .tc)
    (hb : ∀ op ∈ (List.flatten pre : List (HloOp τ sig (Elt F))), Proc.devRef .tc b ∉ op.writes) :
    V m c b = m ((c : Thread nD τ).loc b) :=
  StableHlo.after_of_forall_not_mem (b := Proc.devRef .tc b) _ _ hb

/-- The same after the region, through the reshape that follows it, for a buffer that is no array of the pipeline. -/
theorem W_of_unwritten (dats : (p : Fin _) → (c : Dev nD) → Dat τ (Elt F) Unit ℕ (UR sig nD τ) ℕ (cfgs p) c) (c : Dev nD)
    (b : Ref sig .tc) (hb : ∀ op ∈ (List.flatten pre : List (HloOp τ sig (Elt F))), Proc.devRef .tc b ∉ op.writes)
    (hb1 : ∀ op ∈ (List.flatten [hostOps1] : List (HloOp τ sig (Elt F))), Proc.devRef .tc b ∉ op.writes)
    (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ hb1,
    Pipeline.withArrays_of_ne _ c (V0 m c) _ b hne]
  exact V_of_unwritten m c b hb

/-- No host operation writes `main_arg0`. -/
theorem pre_keeps_arg0 : ∀ op ∈ (List.flatten pre : List (HloOp τ sig (Elt F))), Proc.devRef .tc main_arg0 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg0 : ∀ op ∈ (List.flatten [hostOps1] : List (HloOp τ sig (Elt F))), Proc.devRef .tc main_arg0 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg0 (c : Dev nD) : V m c main_arg0 = m ((c : Thread nD τ).loc main_arg0) :=
  V_of_unwritten m c main_arg0 (pre_keeps_arg0)
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) :=
  W_of_unwritten m dats c main_arg0 (pre_keeps_arg0) (tail_keeps_arg0) (by decide)

/-- No host operation writes `main_arg1`. -/
theorem pre_keeps_arg1 : ∀ op ∈ (List.flatten pre : List (HloOp τ sig (Elt F))), Proc.devRef .tc main_arg1 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg1 : ∀ op ∈ (List.flatten [hostOps1] : List (HloOp τ sig (Elt F))), Proc.devRef .tc main_arg1 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg1 (c : Dev nD) : V m c main_arg1 = m ((c : Thread nD τ).loc main_arg1) :=
  V_of_unwritten m c main_arg1 (pre_keeps_arg1)
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) :=
  W_of_unwritten m dats c main_arg1 (pre_keeps_arg1) (tail_keeps_arg1) (by decide)

/-- No host operation writes `main_arg2`. -/
theorem pre_keeps_arg2 : ∀ op ∈ (List.flatten pre : List (HloOp τ sig (Elt F))), Proc.devRef .tc main_arg2 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg2 : ∀ op ∈ (List.flatten [hostOps1] : List (HloOp τ sig (Elt F))), Proc.devRef .tc main_arg2 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg2 (c : Dev nD) : V m c main_arg2 = m ((c : Thread nD τ).loc main_arg2) :=
  V_of_unwritten m c main_arg2 (pre_keeps_arg2)
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  W_of_unwritten m dats c main_arg2 (pre_keeps_arg2) (tail_keeps_arg2) (by decide)

/-- No host operation writes `main_arg3`. -/
theorem pre_keeps_arg3 : ∀ op ∈ (List.flatten pre : List (HloOp τ sig (Elt F))), Proc.devRef .tc main_arg3 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg3 : ∀ op ∈ (List.flatten [hostOps1] : List (HloOp τ sig (Elt F))), Proc.devRef .tc main_arg3 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg3 (c : Dev nD) : V m c main_arg3 = m ((c : Thread nD τ).loc main_arg3) :=
  V_of_unwritten m c main_arg3 (pre_keeps_arg3)
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  W_of_unwritten m dats c main_arg3 (pre_keeps_arg3) (tail_keeps_arg3) (by decide)

/-- No host operation writes `main_arg4`. -/
theorem pre_keeps_arg4 : ∀ op ∈ (List.flatten pre : List (HloOp τ sig (Elt F))), Proc.devRef .tc main_arg4 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg4 : ∀ op ∈ (List.flatten [hostOps1] : List (HloOp τ sig (Elt F))), Proc.devRef .tc main_arg4 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg4 (c : Dev nD) : V m c main_arg4 = m ((c : Thread nD τ).loc main_arg4) :=
  V_of_unwritten m c main_arg4 (pre_keeps_arg4)
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) :=
  W_of_unwritten m dats c main_arg4 (pre_keeps_arg4) (tail_keeps_arg4) (by decide)

/-- No host operation writes `main_arg5`. -/
theorem pre_keeps_arg5 : ∀ op ∈ (List.flatten pre : List (HloOp τ sig (Elt F))), Proc.devRef .tc main_arg5 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg5 : ∀ op ∈ (List.flatten [hostOps1] : List (HloOp τ sig (Elt F))), Proc.devRef .tc main_arg5 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg5 (c : Dev nD) : V m c main_arg5 = m ((c : Thread nD τ).loc main_arg5) :=
  V_of_unwritten m c main_arg5 (pre_keeps_arg5)
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) :=
  W_of_unwritten m dats c main_arg5 (pre_keeps_arg5) (tail_keeps_arg5) (by decide)

/-- No host operation writes `main_arg6`. -/
theorem pre_keeps_arg6 : ∀ op ∈ (List.flatten pre : List (HloOp τ sig (Elt F))), Proc.devRef .tc main_arg6 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg6 : ∀ op ∈ (List.flatten [hostOps1] : List (HloOp τ sig (Elt F))), Proc.devRef .tc main_arg6 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg6 (c : Dev nD) : V m c main_arg6 = m ((c : Thread nD τ).loc main_arg6) :=
  V_of_unwritten m c main_arg6 (pre_keeps_arg6)
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) :=
  W_of_unwritten m dats c main_arg6 (pre_keeps_arg6) (tail_keeps_arg6) (by decide)

/-- No host operation writes `main_arg7`. -/
theorem pre_keeps_arg7 : ∀ op ∈ (List.flatten pre : List (HloOp τ sig (Elt F))), Proc.devRef .tc main_arg7 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg7 : ∀ op ∈ (List.flatten [hostOps1] : List (HloOp τ sig (Elt F))), Proc.devRef .tc main_arg7 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg7 (c : Dev nD) : V m c main_arg7 = m ((c : Thread nD τ).loc main_arg7) :=
  V_of_unwritten m c main_arg7 (pre_keeps_arg7)
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) :=
  W_of_unwritten m dats c main_arg7 (pre_keeps_arg7) (tail_keeps_arg7) (by decide)

/-- No host operation writes `main_arg8`. -/
theorem pre_keeps_arg8 : ∀ op ∈ (List.flatten pre : List (HloOp τ sig (Elt F))), Proc.devRef .tc main_arg8 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg8 : ∀ op ∈ (List.flatten [hostOps1] : List (HloOp τ sig (Elt F))), Proc.devRef .tc main_arg8 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg8 (c : Dev nD) : V m c main_arg8 = m ((c : Thread nD τ).loc main_arg8) :=
  V_of_unwritten m c main_arg8 (pre_keeps_arg8)
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) :=
  W_of_unwritten m dats c main_arg8 (pre_keeps_arg8) (tail_keeps_arg8) (by decide)

/-- No host operation writes `main_arg9`. -/
theorem pre_keeps_arg9 : ∀ op ∈ (List.flatten pre : List (HloOp τ sig (Elt F))), Proc.devRef .tc main_arg9 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg9 : ∀ op ∈ (List.flatten [hostOps1] : List (HloOp τ sig (Elt F))), Proc.devRef .tc main_arg9 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg9 (c : Dev nD) : V m c main_arg9 = m ((c : Thread nD τ).loc main_arg9) :=
  V_of_unwritten m c main_arg9 (pre_keeps_arg9)
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) :=
  W_of_unwritten m dats c main_arg9 (pre_keeps_arg9) (tail_keeps_arg9) (by decide)

/-- No host operation writes `main_arg10`. -/
theorem pre_keeps_arg10 : ∀ op ∈ (List.flatten pre : List (HloOp τ sig (Elt F))), Proc.devRef .tc main_arg10 ∉ op.writes :=
  List.forall_iff_forall_mem.mp (by
    simp only [pre, hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide))
theorem tail_keeps_arg10 : ∀ op ∈ (List.flatten [hostOps1] : List (HloOp τ sig (Elt F))), Proc.devRef .tc main_arg10 ∉ op.writes :=
  List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    exact StableHlo.devRef_ne_of_ne (by decide))
theorem V_main_arg10 (c : Dev nD) : V m c main_arg10 = m ((c : Thread nD τ).loc main_arg10) :=
  V_of_unwritten m c main_arg10 (pre_keeps_arg10)
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) :=
  W_of_unwritten m dats c main_arg10 (pre_keeps_arg10) (tail_keeps_arg10) (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the rows' block is
    fetched at every point; the matrix and the bias once, and their block index never moves), for any proof data whose
    array is `V`'s and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses, and what it leaves in the output window's buffer -/

abbrev rRows : Rect S8192x128 := Rect.unit (s := S8192x128) ![0, 0] S8192x128.size inb_S8192x128_S8192x128_0_0
abbrev rMat : Rect S128x128 := Rect.unit (s := S128x128) ![0, 0] S128x128.size inb_S128x128_S128x128_0_0
abbrev rBias : Rect S1x128 := Rect.unit (s := S1x128) ![0, 0] S1x128.size inb_S1x128_S1x128_0_0

/-- The output window's staging buffer after the body, from the three input blocks: its one store of the whole block. -/
def out3 (x0 : Vec F S8192x128 .f32) (x1 : Vec F S128x128 .f32) (x2 : Vec F S1x128 .f32) : Vec F S8192x128 .f32 :=
  View.canon [⟨rRows, k0_pay1 (View.ld x0 rRows) (View.ld x1 rMat) (View.ld x2 rBias)⟩]

/-- The store covers the buffer. -/
theorem cover3 (p0 : Vec F S8192x128 .f32) (y : S8192x128.Idx) :
    ∃ pc ∈ ([⟨rRows, p0⟩] : List (View.Piece (Elt F) S8192x128 .f32)), y ∈ pc.1.set :=
  View.cover_of_tiled [⟨rRows, p0⟩] S8192x128.size (by rfl) y

/-! ## The body's triple -/

set_option maxHeartbeats 1000000 in
/-- The kernel body on whole staging memrefs, the inputs' at contents `x0 x1 x2` and the output's at anything, runs to the
    continuation holding the inputs' as they were and the output's at `out3 x0 x1 x2`. -/
theorem sound_kernel (c : Dev nD) (E : Set ℕ) (i : grid0.Coords)
    (arg1 : Memref sig .tc .vmem S8192x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S8192x128 .f32) (harg4 : arg4.IsWhole)
    (x0 : Vec F S8192x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3 x0 x1 x2)) -∗ K ⟨⟩))
      ⊢ wp frame (wpE (defs₀ (F := F)) Variants.none c none) E (cc0__grade_linear_kernel i arg1 harg1 arg2 harg2 arg3 harg3 arg4 harg4) K := by
  simp only [cc0__grade_linear_kernel_eq_skeleton]; unfold cc0__grade_linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! ## The pipeline's proof data -/

/-- The proof data of the pipeline on core `c`: the arrays as the region finds them; after the body at point `t` each
    input's buffer at its block and the output's at `out3` of the three input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = out3 (iblk m c 0 t) (iblk m c 1 t) (iblk m c 2 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the core's
    `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main on the TensorCores terminates, and every final state has every array of the pipeline
    at what the proof data computes and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩)
    (run_main m ρ)

end Cert.KernelIdeal.Hand

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelIdealValue.lean ====
/-
  WHAT THE IDEALIZED KERNEL COMPUTES, on the array re-laid as 262144 rows of 128.

  At a point the body's one store holds, at `(p, q)` of the block, `Σ_k rows[p, k] · mat[k, q] + bias[0, q]` (a change of float
  format is the identity on the extended reals, the accumulator is zero). Block `t` of the rows is rows `8192 t … 8192 t + 8191`
  of the array and the output's block `t` the same rows of the result, so every point writes back the restriction of ONE
  function of the three arrays the region finds — `rowsOut` — and the 32 blocks cover the result. The reshape after the region
  reads that array back as `[8, 2048, 128, 16]`.
-/
import proofs.«162412_j34892314313418_2_alg».proof.Proof.KernelIdealFrame
import proofs.«162412_j34892314313418_2_alg».proof.Proof.LibDotCols
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Idealize.ShloMosaic.StableHlo

variable (m : (ℓ : Loc nD τ sig) → Buf (Elt Ideal) ℓ) (ρ : Dev nD → PrngReg)

/-- Row `r`, column `q` of rows × matrix + bias. -/
def rowsOutAt (X : S262144x128.Idx → EReal) (W : S128x128.Idx → EReal) (b : S1x128.Idx → EReal) (r : Fin 262144) (q : Fin 128) : EReal :=
  (∑ k : Fin 128, X (ix2 r k) * W (ix2 k q)) + b (ix2 (0 : Fin 1) q)

/-- The whole 262144 × 128 result. -/
def rowsOut (X : S262144x128.Idx → EReal) (W : S128x128.Idx → EReal) (b : S1x128.Idx → EReal) : S262144x128.Idx → EReal :=
  fun j => rowsOutAt X W b (j 0) (j 1)

/-- THE BODY'S STORE AT AN INDEX: entry `(p, q)` of the block is row `p` of the rows' block against column `q` of the matrix,
    plus the bias's entry `q`. -/
theorem pay_apply (x0 : Vec Ideal S8192x128 .f32) (x1 : Vec Ideal S128x128 .f32) (x2 : Vec Ideal S1x128 .f32) (p : Fin 8192) (q : Fin 128) :
    k0_pay1 (F := Ideal) x0 x1 x2 (ix2 p q) = (∑ k : Fin 128, x0 (ix2 p k) * x1 (ix2 k q)) + x2 (ix2 (0 : Fin 1) q) := by
  unfold k0_pay1
  refine (addf_apply _ _ _).trans ?_
  congr 1
  · refine (Cert.Lib.DotCols.matmul_cols_apply _ rfl none _ _ p q).trans ?_
    refine Finset.sum_congr rfl fun k _ => ?_
    rw [truncf_apply, truncf_apply, shapeCast_self, shapeCast_self]
  · rw [shapeCast_self]
    refine broadcastTo_apply x2 _ (ix2 p q) (ix2 (0 : Fin 1) q) (fun a => ?_)
    match a with
    | ⟨0, _⟩ => rfl
    | ⟨1, _⟩ => rfl

theorem hz : (![0, 0] : Fin 2 → Nat) = fun _ => 0 := funext fun a => by fin_cases a <;> rfl

/-- The printed index maps over the grid: the rows' and the result's block index is `(t, 0)`, the matrix's and the bias's `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `rowsOut` of the three arrays as the region finds them. -/
theorem flushed3_eq (c : Dev nD) (t : Fin cfg0.N) :
    (dats m 0 c).flushed 3 t = ((cfg0.win 3).blk t).view.read (Elt Ideal)
      (rowsOut (V m c main_v38) (V m c main_v33) (V m c main_v37)) := by
  show (cfg0.win 3).cut (grid0.coords t) ((dats m 0 c).after 3 t) = _
  rw [after_3]
  unfold out3
  rw [View.canon_unit_zero hz]
  simp only [View.ld_unit_zero (S := S8192x128) hz, View.ld_unit_zero (S := S128x128) hz, View.ld_unit_zero (S := S1x128) hz]
  obtain ⟨e00, e01, e10, e11, e20, e21, e30, e31⟩ := idx_facts t
  funext j
  obtain ⟨p, q, rfl⟩ : ∃ (p : Fin 8192) (q : Fin 128), j = ix2 p q := ⟨j 0, j 1, eq_ix2 j⟩
  have ht : t.val < 32 := lt_of_lt_of_eq t.isLt N_0
  have hp : p.val < 8192 := p.isLt
  have hemb : ((cfg0.win 3).blk t).view.emb (ix2 p q) = ix2 (⟨t.val * 8192 + p.val, by omega⟩ : Fin 262144) q := by
    funext a; apply Fin.ext
    match a with
    | ⟨0, _⟩ => show win0_3.index t (0 : Fin 2) * 8192 + 1 * p.val = t.val * 8192 + p.val; omega
    | ⟨1, _⟩ => show win0_3.index t (1 : Fin 2) * 128 + 1 * q.val = q.val; omega
  show k0_pay1 (iblk m c 0 t) (iblk m c 1 t) (iblk m c 2 t) (ix2 p q)
    = rowsOut (V m c main_v38) (V m c main_v33) (V m c main_v37) (((cfg0.win 3).blk t).view.emb (ix2 p q))
  rw [hemb]
  refine (pay_apply _ _ _ p q).trans ?_
  show _ = rowsOutAt (V m c main_v38) (V m c main_v33) (V m c main_v37) (⟨t.val * 8192 + p.val, by omega⟩ : Fin 262144) q
  unfold rowsOutAt
  refine congrArg₂ (· + ·) (Finset.sum_congr rfl fun k _ => congrArg₂ (· * ·) ?_ ?_) ?_
  · show V m c main_v38 (((cfg0.win 0).blk t).view.emb (ix2 p k)) = V m c main_v38 (ix2 (⟨t.val * 8192 + p.val, by omega⟩ : Fin 262144) k)
    refine congrArg _ (funext fun a => Fin.ext ?_)
    match a with
    | ⟨0, _⟩ => show win0_0.index t (0 : Fin 2) * 8192 + 1 * p.val = t.val * 8192 + p.val; omega
    | ⟨1, _⟩ => show win0_0.index t (1 : Fin 2) * 128 + 1 * k.val = k.val; omega
  · show V m c main_v33 (((cfg0.win 1).blk t).view.emb (ix2 k q)) = V m c main_v33 (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show V m c main_v37 (((cfg0.win 2).blk t).view.emb (ix2 (0 : Fin 1) q)) = V m c main_v37 (ix2 (0 : Fin 1) q)
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega

/-- An index of the result is in point `t`'s block iff each coordinate is in the block's range on its axis. -/
theorem mem_blk3 (t : Fin cfg0.N) (i : S262144x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v39).slice (win0_3.rect t)).set ↔ _
  rw [View.set_slice_whole, Rect.mem_set_unit]
  exact Iff.rfl

/-- Row `r` of the result lies in the block of point `r / 8192`: the 32 blocks cover the array. -/
theorem cover3 (i : S262144x128.Idx) :
    ∃ t : Fin cfg0.N, (cfg0.win 3).flush t = true ∧ i ∈ ((cfg0.win 3).blk t).view.set := by
  have hi0 : (i 0).val < 262144 := (i 0).isLt
  have hi1 : (i 1).val < 128 := (i 1).isLt
  let t : Fin cfg0.N := ⟨(i 0).val / 8192, by rw [show cfg0.N = 32 from N_0]; omega⟩
  obtain ⟨-, -, -, -, -, -, e30, e31⟩ := idx_facts t
  have e30' : win0_3.index t (0 : Fin 2) = (i 0).val / 8192 := e30
  refine ⟨t, flush0_3 t, ?_⟩
  rw [mem_blk3]
  intro a
  match a with
  | ⟨0, _⟩ => show win0_3.index t (0 : Fin 2) * 8192 ≤ (i 0).val ∧ (i 0).val < win0_3.index t (0 : Fin 2) * 8192 + 8192; omega
  | ⟨1, _⟩ => show win0_3.index t (1 : Fin 2) * 128 ≤ (i 1).val ∧ (i 1).val < win0_3.index t (1 : Fin 2) * 128 + 128; omega

/-- THE RESULT ARRAY after the run: `rowsOut` of the three arrays as the region finds them. -/
theorem final3 (c : Dev nD) : (dats m 0 c).arrAt 3 cfg0.N = rowsOut (V m c main_v38) (V m c main_v33) (V m c main_v37) :=
  (dats m 0 c).arrAt_eq_of_cover 3 _ (fun t _ => flushed3_eq m c t) cover3

/-- The result buffer after the reshape that follows the region: the result array read back as `[8, 2048, 128, 16]`. -/
theorem tail_v40 (c : Dev nD) :
    Pipeline.afterTail₀ cfgs (dats m) 0 (V0 m) [hostOps1] c main_v40
      = shapeCast S8x2048x128x16 (rowsOut (V m c main_v38) (V m c main_v33) (V m c main_v37)) shapeCasts_S262144x128_S8x2048x128x16 := by
  unfold Pipeline.afterTail₀
  show StableHlo.after hostOps1 _ (Proc.devRef .tc main_v40) = _
  after_results
  rw [Pipeline.withArrays_arr spec0 launch0.win.arr_inj c _ _ 3, final3]
  rfl

/-- THE RUN, READ: every weakly fair execution of @main terminates with the result buffer at `rowsOut` of the three arrays the
    region finds, read back as `[8, 2048, 128, 16]`, and the eleven arguments as launched. -/
theorem run : θ_run defs (onTc (τ := τ) (main (F := Ideal))) ⟨m, fun _ => 0, ρ⟩ fun r => ∀ c : Dev nD,
      r.2.mem ((c.tc : Thread nD τ).loc main_v40)
        = shapeCast S8x2048x128x16 (rowsOut (V m c main_v38) (V m c main_v33) (V m c main_v37)) shapeCasts_S262144x128_S8x2048x128x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨
    ((h c).2 main_v40 (Pipeline.mem_restRefs_of main_v40 (by decide) (by decide))).trans (tail_v40 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c),
    ((h c).2 main_arg8 (Pipeline.mem_restRefs_of main_arg8 (by decide) (by decide))).trans (W_main_arg8 m (dats m) c),
    ((h c).2 main_arg9 (Pipeline.mem_restRefs_of main_arg9 (by decide) (by decide))).trans (W_main_arg9 m (dats m) c),
    ((h c).2 main_arg10 (Pipeline.mem_restRefs_of main_arg10 (by decide) (by decide))).trans (W_main_arg10 m (dats m) c)⟩)
    (run_main m ρ)

end Cert.KernelIdeal.HandValue

end
-- ==== Proof.HostTerms.lean ====
/-
  THE THREE ARRAYS THE REGION READS, as terms of the argument arrays.

  Before the region @main builds: the 16 × 16 matrix — zeros, then the transposed weight of each grade written over the
  square block at that grade's offset (0, 1, 5, 11, 15) on the diagonal —, the 8 × 8 identity (row number = column number, as
  0 / 1), their Kronecker product laid out as 128 × 128, the five biases joined into 16 entries and repeated 8 times as one row
  of 128, and the argument array re-laid as 262144 rows of 128.
-/
import proofs.«162412_j34892314313418_2_alg».proof.Proof.Gen.KernelIdeal
import Idealize.ShloMosaic.PureOps.Ideal

noncomputable section

namespace Cert.KernelIdeal.HostTerms

open Cert.KernelIdeal Cert.KernelIdeal.Gen
open Idealize.ShloMosaic

/-- The scatter index `[k, k]`: where a grade's block starts, on both axes. -/
def hostIdx (k : BitVec 32) : IVec S2 32 :=
  concatenate S2 0 [⟨S1, broadcastInDim S1 ![] bcast_S_S1 (constantI S_ 32 k)⟩, ⟨S1, broadcastInDim S1 ![] bcast_S_S1 (constantI S_ 32 k)⟩] concatenates_S1_S1_S2_d0

/-- The block-diagonal 16 × 16 matrix: zeros overwritten by the five transposed weights, in the order of the grades. -/
def hostM16 (w0 : FVec Ideal S1x1 .f32) (w1 : FVec Ideal S4x4 .f32) (w2 : FVec Ideal S6x6 .f32) (w3 : FVec Ideal S4x4 .f32) (w4 : FVec Ideal S1x1 .f32) :
    FVec Ideal S16x16 .f32 :=
  Host.scatter scatter_S16x16_S2_S1x1_01_n_01_0 (fun _ b => b)
    (Host.scatter scatter_S16x16_S2_S4x4_01_n_01_0 (fun _ b => b)
      (Host.scatter scatter_S16x16_S2_S6x6_01_n_01_0 (fun _ b => b)
        (Host.scatter scatter_S16x16_S2_S4x4_01_n_01_0 (fun _ b => b)
          (Host.scatter scatter_S16x16_S2_S1x1_01_n_01_0 (fun _ b => b)
            (broadcastInDim S16x16 ![] bcast_S_S16x16 (constant (F := Ideal) S_ .f32 0x00000000#32))
            (hostIdx 0#32) (transpose S1x1 [1, 0] w0 transposes_S1x1_S1x1_1_0))
          (hostIdx 1#32) (transpose S4x4 [1, 0] w1 transposes_S4x4_S4x4_1_0))
        (hostIdx 5#32) (transpose S6x6 [1, 0] w2 transposes_S6x6_S6x6_1_0))
      (hostIdx 11#32) (transpose S4x4 [1, 0] w3 transposes_S4x4_S4x4_1_0))
    (hostIdx 15#32) (transpose S1x1 [1, 0] w4 transposes_S1x1_S1x1_1_0)

/-- The 8 × 8 identity: 1 where the row's number equals the column's, else 0. -/
def hostEye : FVec Ideal S8x8 .f32 :=
  uitofp (F := Ideal) .f32 (cmpi .eq (addi (iotaInDim S8x8 32 0) (broadcastInDim S8x8 ![] bcast_S_S8x8 (constantI S_ 32 0#32))) (iotaInDim S8x8 32 1))

/-- The Kronecker product of an 8 × 8 and a 16 × 16 matrix, laid out as 128 × 128. -/
def hostKron (e : FVec Ideal S8x8 .f32) (M : FVec Ideal S16x16 .f32) : FVec Ideal S128x128 .f32 :=
  shapeCast S128x128
    (mulf (broadcastInDim S8x16x8x16 ![0, 1, 2, 3] bcast_S8x1x8x1_S8x16x8x16_0_1_2_3
            (broadcastInDim S8x1x8x1 ![0, 2] bcast_S8x8_S8x1x8x1_0_2 e))
          (broadcastInDim S8x16x8x16 ![0, 1, 2, 3] bcast_S1x16x1x16_S8x16x8x16_0_1_2_3
            (broadcastInDim S1x16x1x16 ![1, 3] bcast_S16x16_S1x16x1x16_1_3 M)))
    shapeCasts_S8x16x8x16_S128x128

/-- The five biases joined into 16 entries. -/
def hostBias16 (b0 : FVec Ideal S1 .f32) (b1 : FVec Ideal S4 .f32) (b2 : FVec Ideal S6 .f32) (b3 : FVec Ideal S4 .f32) (b4 : FVec Ideal S1 .f32) :
    FVec Ideal S16 .f32 :=
  concatenate S16 0 [⟨S1, b0⟩, ⟨S4, b1⟩, ⟨S6, b2⟩, ⟨S4, b3⟩, ⟨S1, b4⟩] concatenates_S1_S4_S6_S4_S1_S16_d0

/-- 16 entries repeated 8 times as one row of 128. -/
def hostTile (b : FVec Ideal S16 .f32) : FVec Ideal S1x128 .f32 :=
  shapeCast S1x128 (shapeCast S128 (broadcastInDim S8x16 ![0, 1] bcast_S1x16_S8x16_0_1 (shapeCast S1x16 b shapeCasts_S16_S1x16)) shapeCasts_S8x16_S128) shapeCasts_S128_S1x128

/-- The argument array re-laid as 262144 rows of 128. -/
def hostRows (x : FVec Ideal S8x2048x128x16 .f32) : FVec Ideal S262144x128 .f32 :=
  shapeCast S262144x128 x shapeCasts_S8x2048x128x16_S262144x128

end Cert.KernelIdeal.HostTerms

end
-- ==== Proof.KernelIdealHost.lean ====
/-
  THE THREE ARRAYS AS THE REGION FINDS THEM.

  Every host operation before the region writes a fresh buffer of its own, so running the three stretches from the launch
  contents leaves, in the buffers the pallas_call's windows name, exactly the terms of HostTerms.lean applied to the argument
  arrays as launched: the rows, the 128 × 128 matrix, the bias row.
-/
import proofs.«162412_j34892314313418_2_alg».proof.Proof.KernelIdealFrame
import proofs.«162412_j34892314313418_2_alg».proof.Proof.HostTerms
import Idealize.ShloMosaic.Lib.StableHlo.Run

set_option maxRecDepth 16384

noncomputable section

namespace Cert.KernelIdeal.HostTerms

open Cert.KernelIdeal Cert.KernelIdeal.Gen Cert.KernelIdeal.Hand
open Idealize.ShloMosaic Idealize.ShloMosaic.TcCoe Idealize.SL.Sem Idealize.ShloMosaic.StableHlo

section Nary5
variable {τ' : Topo} {sig' : RefSig} {Val : EltTy → Type} {x a b c e y : Ref sig' .tc}

/-- An operation of FIVE literal operands: its result with each operand's contents at its own reference. -/
theorem nary5_result
    (f : ((k : Fin 5) → ((![x, a, b, c, e] : Fin 5 → Ref sig' .tc) k).ty.Contents Val) → y.ty.Contents Val) (hxs hy)
    (F : Valuation τ' sig' Val) :
    (nary (τ := τ') ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

end Nary5

/-- Each operation's result at its own buffer is its function's value, at any other buffer what was there: one pass. -/
macro "host_results" : tactic =>
  `(tactic| (simp (disch := decide) only [after_cons, after_nil,
      nullary_result', unary_result', binary_result', ternary_result', quaternary_result', reshape_result', nary5_result, nary_result',
      nullary_result_ne', unary_result_ne', binary_result_ne', ternary_result_ne', quaternary_result_ne', reshape_result_ne',
      nary_result_ne']))

variable (m : (ℓ : Loc nD τ sig) → Buf (Elt Ideal) ℓ)

set_option maxHeartbeats 4000000 in
/-- The rows' array as the region finds it. -/
theorem V_rows (c : Dev nD) : (V m c main_v38 : S262144x128.Idx → EReal) = hostRows (m ((c : Thread nD τ).loc main_arg0)) := by
  dsimp only [V, V0]
  simp only [pre, hostOps0, hostOps0_1, hostOps0_2, List.flatten_cons, List.flatten_nil, List.append_nil, List.cons_append, List.nil_append]
  host_results
  rfl

set_option maxHeartbeats 4000000 in
/-- The bias row as the region finds it. -/
theorem V_bias (c : Dev nD) : (V m c main_v37 : S1x128.Idx → EReal)
    = hostTile (hostBias16 (m ((c : Thread nD τ).loc main_arg2)) (m ((c : Thread nD τ).loc main_arg4)) (m ((c : Thread nD τ).loc main_arg6))
        (m ((c : Thread nD τ).loc main_arg8)) (m ((c : Thread nD τ).loc main_arg10))) := by
  dsimp only [V, V0]
  simp only [pre, hostOps0, hostOps0_1, hostOps0_2, List.flatten_cons, List.flatten_nil, List.append_nil, List.cons_append, List.nil_append]
  host_results
  rfl

set_option maxHeartbeats 4000000 in
/-- The 128 × 128 matrix as the region finds it. -/
theorem V_mat (c : Dev nD) : (V m c main_v33 : S128x128.Idx → EReal)
    = hostKron hostEye (hostM16 (m ((c : Thread nD τ).loc main_arg1)) (m ((c : Thread nD τ).loc main_arg3)) (m ((c : Thread nD τ).loc main_arg5))
        (m ((c : Thread nD τ).loc main_arg7)) (m ((c : Thread nD τ).loc main_arg9))) := by
  dsimp only [V, V0]
  simp only [pre, hostOps0, hostOps0_1, hostOps0_2, List.flatten_cons, List.flatten_nil, List.append_nil, List.cons_append, List.nil_append]
  host_results
  rfl

end Cert.KernelIdeal.HostTerms

end
-- ==== Proof.HostLayout.lean ====
/-
  THE LAYOUT OPERATIONS BEFORE THE REGION, each read at an index.

  The Kronecker product of the 8 × 8 identity with a 16 × 16 matrix as a 128 × 128 array (entry `(k, c)` is the identity's
  `(k / 16, c / 16)` times the matrix's `(k mod 16, c mod 16)`); a 16-entry vector repeated 8 times as one row of 128 (entry `c` is
  entry `c mod 16`); the array `[8, 2048, 128, 16]` re-laid as `[262144, 128]` and back (same row-major position); the identity's
  entries 1 on the diagonal and 0 off it; and five vectors of lengths 1, 4, 6, 4, 1 joined into 16 entries (entry `o` is the piece
  whose span holds `o`, at `o` less the piece's offset).
-/
import proofs.«162412_j34892314313418_2_alg».proof.Proof.Gen.KernelIdeal
import Idealize.ShloMosaic.Lib.ValueIdx
import Idealize.ShloMosaic.Lib.Pipeline.Value
import Idealize.ShloMosaic.Lib.ValueLayout

namespace Cert.KernelIdeal.HostLayout

open Idealize.ShloMosaic Idealize.ShloMosaic.ValueIdx
open Cert.KernelIdeal Cert.KernelIdeal.Gen

/-- The Kronecker product of an 8×8 and a 16×16 matrix, built by two broadcasts each into the four-axis shape
    [8, 16, 8, 16], an elementwise product and a row-major cast to [128, 128]: entry (k, c) is the first factor at
    (k / 16, c / 16) times the second at (k % 16, c % 16). -/
theorem kron_apply (e : FVec Ideal S8x8 .f32) (M : FVec Ideal S16x16 .f32) (k c : Fin 128) :
    shapeCast S128x128
      (mulf (broadcastInDim S8x16x8x16 ![0, 1, 2, 3] bcast_S8x1x8x1_S8x16x8x16_0_1_2_3
              (broadcastInDim S8x1x8x1 ![0, 2] bcast_S8x8_S8x1x8x1_0_2 e))
            (broadcastInDim S8x16x8x16 ![0, 1, 2, 3] bcast_S1x16x1x16_S8x16x8x16_0_1_2_3
              (broadcastInDim S1x16x1x16 ![1, 3] bcast_S16x16_S1x16x1x16_1_3 M)))
      shapeCasts_S8x16x8x16_S128x128 (ix2 k c)
    = e (ix2 (⟨k.val / 16, by omega⟩ : Fin 8) (⟨c.val / 16, by omega⟩ : Fin 8))
      * M (ix2 (⟨k.val % 16, by omega⟩ : Fin 16) (⟨c.val % 16, by omega⟩ : Fin 16)) := by
  refine (shapeCast_apply _ shapeCasts_S8x16x8x16_S128x128 (ix2 k c)
    (ix4 (⟨k.val / 16, by omega⟩ : Fin 8) (⟨k.val % 16, by omega⟩ : Fin 16)
         (⟨c.val / 16, by omega⟩ : Fin 8) (⟨c.val % 16, by omega⟩ : Fin 16)) ?_).trans ?_
  · rw [Shape.rowMajor_val_four, Shape.rowMajor_val_two]
    show ((k.val / 16 * 16 + k.val % 16) * 8 + c.val / 16) * 16 + c.val % 16 = k.val * 128 + c.val
    omega
  · rw [mulf_apply]
    congr 1
    · refine (broadcastInDim_apply _ bcast_S8x1x8x1_S8x16x8x16_0_1_2_3 _ _
        (ix4 (⟨k.val / 16, by omega⟩ : Fin 8) (0 : Fin 1) (⟨c.val / 16, by omega⟩ : Fin 8) (0 : Fin 1)) ?_).trans ?_
      · intro a
        match a with
        | ⟨0, _⟩ => rfl
        | ⟨1, _⟩ => rfl
        | ⟨2, _⟩ => rfl
        | ⟨3, _⟩ => rfl
      · refine broadcastInDim_apply _ bcast_S8x8_S8x1x8x1_0_2 e _ _ ?_
        intro a
        match a with
        | ⟨0, _⟩ => rfl
        | ⟨1, _⟩ => rfl
    · refine (broadcastInDim_apply _ bcast_S1x16x1x16_S8x16x8x16_0_1_2_3 _ _
        (ix4 (0 : Fin 1) (⟨k.val % 16, by omega⟩ : Fin 16) (0 : Fin 1) (⟨c.val % 16, by omega⟩ : Fin 16)) ?_).trans ?_
      · intro a
        match a with
        | ⟨0, _⟩ => rfl
        | ⟨1, _⟩ => rfl
        | ⟨2, _⟩ => rfl
        | ⟨3, _⟩ => rfl
      · refine broadcastInDim_apply _ bcast_S16x16_S1x16x1x16_1_3 M _ _ ?_
        intro a
        match a with
        | ⟨0, _⟩ => rfl
        | ⟨1, _⟩ => rfl

/-- A 16-vector viewed as one row, repeated over 8 rows, flattened row-major to 128 entries and viewed as one row
    again: entry `c` of that row is entry `c % 16` of the vector. -/
theorem tile_apply (b : FVec Ideal S16 .f32) (u : Fin 1) (c : Fin 128) :
    shapeCast S1x128
      (shapeCast S128
        (broadcastInDim S8x16 ![0, 1] bcast_S1x16_S8x16_0_1
          (shapeCast S1x16 b shapeCasts_S16_S1x16))
        shapeCasts_S8x16_S128)
      shapeCasts_S128_S1x128 (ix2 u c)
    = b (ix1 (⟨c.val % 16, by omega⟩ : Fin 16)) := by
  refine (shapeCast_a_1a_apply _ shapeCasts_S128_S1x128 u c).trans ?_
  refine (shapeCast_apply _ shapeCasts_S8x16_S128 (ix1 c)
    (ix2 (⟨c.val / 16, by omega⟩ : Fin 8) (⟨c.val % 16, by omega⟩ : Fin 16)) ?_).trans ?_
  · rw [Shape.rowMajor_val_two, Shape.rowMajor_val_one]
    show c.val / 16 * 16 + c.val % 16 = c.val
    omega
  · refine (broadcastInDim_apply _ bcast_S1x16_S8x16_0_1 _ _
      (ix2 (0 : Fin 1) (⟨c.val % 16, by omega⟩ : Fin 16)) ?_).trans ?_
    · intro a
      match a with
      | ⟨0, _⟩ => rfl
      | ⟨1, _⟩ => rfl
    · exact shapeCast_a_1a_apply b shapeCasts_S16_S1x16 (0 : Fin 1) _

/-- The four-axis array [8, 2048, 128, 16] cast row-major to [262144, 128]: entry (r, k) is the entry (B, S, P, o)
    at the same row-major position. -/
theorem flatten_apply (x : FVec Ideal S8x2048x128x16 .f32) (r : Fin 262144) (k : Fin 128)
    (B : Fin 8) (S : Fin 2048) (P : Fin 128) (o : Fin 16)
    (h : r.val * 128 + k.val = ((B.val * 2048 + S.val) * 128 + P.val) * 16 + o.val) :
    shapeCast S262144x128 x shapeCasts_S8x2048x128x16_S262144x128 (ix2 r k) = x (ix4 B S P o) :=
  shapeCast_apply x shapeCasts_S8x2048x128x16_S262144x128 (ix2 r k) (ix4 B S P o) (by
    rw [Shape.rowMajor_val_four, Shape.rowMajor_val_two]
    show ((B.val * 2048 + S.val) * 128 + P.val) * 16 + o.val = r.val * 128 + k.val
    exact h.symm)

/-- The array [262144, 128] cast row-major back to [8, 2048, 128, 16]: entry (B, S, P, o) is the entry (r, k) at the
    same row-major position. -/
theorem unflatten_apply (y : FVec Ideal S262144x128 .f32) (r : Fin 262144) (k : Fin 128)
    (B : Fin 8) (S : Fin 2048) (P : Fin 128) (o : Fin 16)
    (h : r.val * 128 + k.val = ((B.val * 2048 + S.val) * 128 + P.val) * 16 + o.val) :
    shapeCast S8x2048x128x16 y shapeCasts_S262144x128_S8x2048x128x16 (ix4 B S P o) = y (ix2 r k) :=
  shapeCast_apply y shapeCasts_S262144x128_S8x2048x128x16 (ix4 B S P o) (ix2 r k) (by
    rw [Shape.rowMajor_val_four, Shape.rowMajor_val_two]
    show r.val * 128 + k.val = ((B.val * 2048 + S.val) * 128 + P.val) * 16 + o.val
    exact h)

/-- The comparison bit of "row index plus zero equals column index" on the 8×8 index grid, at 32-bit words. -/
theorem eye_bit (a' a : Fin 8) :
    IntOp.cmpi .eq (IntOp.addi (BitVec.ofNat 32 a'.val) 0#32) (BitVec.ofNat 32 a.val) = if a' = a then 1#1 else 0#1 := by
  revert a' a
  decide

/-- The 8×8 identity matrix built from the two index grids (row index plus a zero splat, compared for equality with the
    column index, the bit converted to a float): entry (a', a) is 1 on the diagonal and 0 off it. -/
theorem eye_apply (a' a : Fin 8) :
    uitofp (F := Ideal) .f32
      (cmpi .eq (addi (iotaInDim S8x8 32 0) (broadcastInDim S8x8 ![] bcast_S_S8x8 (constantI S_ 32 0#32)))
        (iotaInDim S8x8 32 1)) (ix2 a' a)
    = if a' = a then (1 : EReal) else 0 := by
  show (((IntOp.cmpi .eq (IntOp.addi (BitVec.ofNat 32 a'.val) 0#32) (BitVec.ofNat 32 a.val)).toNat : ℝ) : EReal) = _
  rw [eye_bit]
  by_cases h : a' = a
  · rw [if_pos h, if_pos h]
    show (((1 : ℕ) : ℝ) : EReal) = 1
    rw [Nat.cast_one, EReal.coe_one]
  · rw [if_neg h, if_neg h]
    show (((0 : ℕ) : ℝ) : EReal) = 0
    rw [Nat.cast_zero, EReal.coe_zero]

/-! The five bias vectors of lengths 1, 4, 6, 4, 1 laid end to end into one 16-vector: entry `o` is read from the piece
whose span `[lo, hi)` holds `o` — spans [0, 1), [1, 5), [5, 11), [11, 15), [15, 16) — at position `o - lo`. -/

/-- Entries 0 ≤ o < 1 of the concatenation are the first piece at `o - 0`. -/
theorem bias_apply_0 (b0 : FVec Ideal S1 .f32) (b1 : FVec Ideal S4 .f32) (b2 : FVec Ideal S6 .f32) (b3 : FVec Ideal S4 .f32)
    (b4 : FVec Ideal S1 .f32) (o : Fin 16) (hhi : o.val < 1) :
    concatenate S16 0 [⟨S1, b0⟩, ⟨S4, b1⟩, ⟨S6, b2⟩, ⟨S4, b3⟩, ⟨S1, b4⟩] concatenates_S1_S4_S6_S4_S1_S16_d0 (ix1 o)
      = b0 (ix1 (⟨o.val - 0, by omega⟩ : Fin 1)) :=
  concatenate_apply_piece (t := S16) 0 [⟨S1, b0⟩, ⟨S4, b1⟩, ⟨S6, b2⟩, ⟨S4, b3⟩, ⟨S1, b4⟩]
    concatenates_S1_S4_S6_S4_S1_S16_d0 (ix1 o) 0 (by show (0 : ℕ) < 5; decide) S1 b0 rfl rfl 0 rfl
    (ix1 (⟨o.val - 0, by omega⟩ : Fin 1))
    (fun b hb => absurd (Fin.ext (by show b.val = 0; have : b.val < 1 := b.isLt; omega)) hb)
    (by show 0 + (o.val - 0) = o.val; omega)

/-- Entries 1 ≤ o < 5 of the concatenation are the second piece at `o - 1`. -/
theorem bias_apply_1 (b0 : FVec Ideal S1 .f32) (b1 : FVec Ideal S4 .f32) (b2 : FVec Ideal S6 .f32) (b3 : FVec Ideal S4 .f32)
    (b4 : FVec Ideal S1 .f32) (o : Fin 16) (hlo : 1 ≤ o.val) (hhi : o.val < 5) :
    concatenate S16 0 [⟨S1, b0⟩, ⟨S4, b1⟩, ⟨S6, b2⟩, ⟨S4, b3⟩, ⟨S1, b4⟩] concatenates_S1_S4_S6_S4_S1_S16_d0 (ix1 o)
      = b1 (ix1 (⟨o.val - 1, by omega⟩ : Fin 4)) :=
  concatenate_apply_piece (t := S16) 0 [⟨S1, b0⟩, ⟨S4, b1⟩, ⟨S6, b2⟩, ⟨S4, b3⟩, ⟨S1, b4⟩]
    concatenates_S1_S4_S6_S4_S1_S16_d0 (ix1 o) 1 (by show (1 : ℕ) < 5; decide) S4 b1 rfl rfl 1 rfl
    (ix1 (⟨o.val - 1, by omega⟩ : Fin 4))
    (fun b hb => absurd (Fin.ext (by show b.val = 0; have : b.val < 1 := b.isLt; omega)) hb)
    (by show 1 + (o.val - 1) = o.val; omega)

/-- Entries 5 ≤ o < 11 of the concatenation are the third piece at `o - 5`. -/
theorem bias_apply_2 (b0 : FVec Ideal S1 .f32) (b1 : FVec Ideal S4 .f32) (b2 : FVec Ideal S6 .f32) (b3 : FVec Ideal S4 .f32)
    (b4 : FVec Ideal S1 .f32) (o : Fin 16) (hlo : 5 ≤ o.val) (hhi : o.val < 11) :
    concatenate S16 0 [⟨S1, b0⟩, ⟨S4, b1⟩, ⟨S6, b2⟩, ⟨S4, b3⟩, ⟨S1, b4⟩] concatenates_S1_S4_S6_S4_S1_S16_d0 (ix1 o)
      = b2 (ix1 (⟨o.val - 5, by omega⟩ : Fin 6)) :=
  concatenate_apply_piece (t := S16) 0 [⟨S1, b0⟩, ⟨S4, b1⟩, ⟨S6, b2⟩, ⟨S4, b3⟩, ⟨S1, b4⟩]
    concatenates_S1_S4_S6_S4_S1_S16_d0 (ix1 o) 2 (by show (2 : ℕ) < 5; decide) S6 b2 rfl rfl 5 rfl
    (ix1 (⟨o.val - 5, by omega⟩ : Fin 6))
    (fun b hb => absurd (Fin.ext (by show b.val = 0; have : b.val < 1 := b.isLt; omega)) hb)
    (by show 5 + (o.val - 5) = o.val; omega)

/-- Entries 11 ≤ o < 15 of the concatenation are the fourth piece at `o - 11`. -/
theorem bias_apply_3 (b0 : FVec Ideal S1 .f32) (b1 : FVec Ideal S4 .f32) (b2 : FVec Ideal S6 .f32) (b3 : FVec Ideal S4 .f32)
    (b4 : FVec Ideal S1 .f32) (o : Fin 16) (hlo : 11 ≤ o.val) (hhi : o.val < 15) :
    concatenate S16 0 [⟨S1, b0⟩, ⟨S4, b1⟩, ⟨S6, b2⟩, ⟨S4, b3⟩, ⟨S1, b4⟩] concatenates_S1_S4_S6_S4_S1_S16_d0 (ix1 o)
      = b3 (ix1 (⟨o.val - 11, by omega⟩ : Fin 4)) :=
  concatenate_apply_piece (t := S16) 0 [⟨S1, b0⟩, ⟨S4, b1⟩, ⟨S6, b2⟩, ⟨S4, b3⟩, ⟨S1, b4⟩]
    concatenates_S1_S4_S6_S4_S1_S16_d0 (ix1 o) 3 (by show (3 : ℕ) < 5; decide) S4 b3 rfl rfl 11 rfl
    (ix1 (⟨o.val - 11, by omega⟩ : Fin 4))
    (fun b hb => absurd (Fin.ext (by show b.val = 0; have : b.val < 1 := b.isLt; omega)) hb)
    (by show 11 + (o.val - 11) = o.val; omega)

/-- Entries 15 ≤ o < 16 of the concatenation are the fifth piece at `o - 15`. -/
theorem bias_apply_4 (b0 : FVec Ideal S1 .f32) (b1 : FVec Ideal S4 .f32) (b2 : FVec Ideal S6 .f32) (b3 : FVec Ideal S4 .f32)
    (b4 : FVec Ideal S1 .f32) (o : Fin 16) (hlo : 15 ≤ o.val) :
    concatenate S16 0 [⟨S1, b0⟩, ⟨S4, b1⟩, ⟨S6, b2⟩, ⟨S4, b3⟩, ⟨S1, b4⟩] concatenates_S1_S4_S6_S4_S1_S16_d0 (ix1 o)
      = b4 (ix1 (⟨o.val - 15, by omega⟩ : Fin 1)) :=
  concatenate_apply_piece (t := S16) 0 [⟨S1, b0⟩, ⟨S4, b1⟩, ⟨S6, b2⟩, ⟨S4, b3⟩, ⟨S1, b4⟩]
    concatenates_S1_S4_S6_S4_S1_S16_d0 (ix1 o) 4 (by show (4 : ℕ) < 5; decide) S1 b4 rfl rfl 15 rfl
    (ix1 (⟨o.val - 15, by omega⟩ : Fin 1))
    (fun b hb => absurd (Fin.ext (by show b.val = 0; have : b.val < 1 := b.isLt; omega)) hb)
    (by show 15 + (o.val - 15) = o.val; omega)

end Cert.KernelIdeal.HostLayout
-- ==== Proof.LibSumWindow.lean ====
/-
  A finite sum whose terms vanish outside a window.

  For `g : Fin n → M` in any additive commutative monoid, if `g i = 0` whenever `i` is outside `[lo, lo + d)` (with
  `lo + d ≤ n`), then `∑ i, g i = ∑ k : Fin d, g (lo + k)`: the window's entries are the image of `Fin d` under the injection
  `k ↦ lo + k`, and the terms off the image contribute nothing. No cancellation or finiteness is used, so it holds on the
  extended reals.
-/
import Mathlib.Algebra.BigOperators.Fin

open scoped BigOperators

namespace SumWindow

/-- The injection of a window of width `d` at offset `lo` into `Fin n`. -/
def shift (n d lo : Nat) (h : lo + d ≤ n) : Fin d ↪ Fin n :=
  ⟨fun k => ⟨lo + k.val, by have := k.isLt; omega⟩, fun a b hab => Fin.ext (by
    have := congrArg Fin.val hab
    simp only at this
    omega)⟩

theorem shift_val (n d lo : Nat) (h : lo + d ≤ n) (k : Fin d) : (shift n d lo h k).val = lo + k.val := rfl

/-- THE SUM OVER THE WINDOW: terms vanishing outside `[lo, lo + d)` leave the sum over the window. -/
theorem sum_window {M : Type*} [AddCommMonoid M] (n d lo : Nat) (h : lo + d ≤ n) (g : Fin n → M)
    (hz : ∀ i : Fin n, ¬(lo ≤ i.val ∧ i.val < lo + d) → g i = 0) :
    ∑ i, g i = ∑ k : Fin d, g (shift n d lo h k) := by
  rw [show (∑ k : Fin d, g (shift n d lo h k)) = ∑ i ∈ Finset.univ.map (shift n d lo h), g i from
    (Finset.sum_map _ (shift n d lo h) g).symm]
  refine (Finset.sum_subset (Finset.subset_univ _) fun i _ hi => hz i fun hb => hi ?_).symm
  rw [Finset.mem_map]
  exact ⟨⟨i.val - lo, by omega⟩, Finset.mem_univ _, Fin.ext (by rw [shift_val]; show lo + (i.val - lo) = i.val; omega)⟩

end SumWindow
-- ==== Proof.Bridge.lean ====
/-
  THE KERNEL'S ENTRIES, first for any 16 × 16 matrix: the Kronecker product with the identity acts on each 16-entry row alone.

  Entry `(B, S, P, o)` of the result is entry `(r, c)` of the re-laid array, `R = (B·2048 + S)·128 + P`, `r = R / 8`,
  `c = 16·(R mod 8) + o`. Column `c` of `I₈ ⊗ M` is zero outside rows `16·(R mod 8) … 16·(R mod 8) + 15`, where it is column `o` of `M`;
  and those sixteen entries of row `r` of the re-laid array are row `(B, S, P)` of `x`. A product with a zero factor is zero on
  the extended reals, whatever the other factor, so the 128-term sum is the 16-term sum `Σ_i x[B,S,P,i] · M[i,o]`; the tiled bias
  at `c` is its entry `o`.
-/
import proofs.«162412_j34892314313418_2_alg».proof.Proof.KernelIdealValue
import proofs.«162412_j34892314313418_2_alg».proof.Proof.HostTerms
import proofs.«162412_j34892314313418_2_alg».proof.Proof.HostLayout
import proofs.«162412_j34892314313418_2_alg».proof.Proof.LibSumWindow

noncomputable section

namespace Cert.KernelIdeal.Bridge

open Cert.KernelIdeal Cert.KernelIdeal.Gen Cert.KernelIdeal.HostTerms Cert.KernelIdeal.HandValue
open Idealize.ShloMosaic Idealize.ShloMosaic.ValueIdx

/-- An entry of `I₈ ⊗ M`: `M`'s entry at the positions within the 16-blocks when the two blocks are the same, else zero. -/
theorem mat_entry (M : FVec Ideal S16x16 .f32) (k c : Fin 128) :
    hostKron hostEye M (ix2 k c)
      = if k.val / 16 = c.val / 16 then M (ix2 (⟨k.val % 16, by omega⟩ : Fin 16) (⟨c.val % 16, by omega⟩ : Fin 16)) else 0 := by
  refine (HostLayout.kron_apply hostEye M k c).trans ?_
  have he := HostLayout.eye_apply (⟨k.val / 16, by omega⟩ : Fin 8) (⟨c.val / 16, by omega⟩ : Fin 8)
  rw [show hostEye (ix2 (⟨k.val / 16, by omega⟩ : Fin 8) (⟨c.val / 16, by omega⟩ : Fin 8))
        = if (⟨k.val / 16, by omega⟩ : Fin 8) = (⟨c.val / 16, by omega⟩ : Fin 8) then (1 : EReal) else 0 from he]
  by_cases h : k.val / 16 = c.val / 16
  · rw [if_pos (Fin.ext h), if_pos h, one_mul]
  · rw [if_neg (fun e => h (congrArg Fin.val e)), if_neg h, zero_mul]

/-- THE ENTRY FOR ANY MATRIX AND BIAS: row `(B, S, P)` of `x` against column `o` of `M`, plus the bias's entry `o`. -/
theorem entry_eq_col (x : FVec Ideal S8x2048x128x16 .f32) (M : FVec Ideal S16x16 .f32) (b16 : FVec Ideal S16 .f32)
    (B : Fin 8) (S : Fin 2048) (P : Fin 128) (o : Fin 16) :
    shapeCast S8x2048x128x16 (rowsOut (hostRows x) (hostKron hostEye M) (hostTile b16)) shapeCasts_S262144x128_S8x2048x128x16 (ix4 B S P o)
      = (∑ i : Fin 16, x (ix4 B S P i) * M (ix2 i o)) + b16 (ix1 o) := by
  have hB := B.isLt; have hS := S.isLt; have hP := P.isLt; have ho := o.isLt
  obtain ⟨R, hR⟩ : ∃ R : Nat, R = (B.val * 2048 + S.val) * 128 + P.val := ⟨_, rfl⟩
  have hR' : R < 2097152 := by omega
  have hrc : (⟨R / 8, by omega⟩ : Fin 262144).val * 128 + (⟨R % 8 * 16 + o.val, by omega⟩ : Fin 128).val
      = ((B.val * 2048 + S.val) * 128 + P.val) * 16 + o.val := by
    show R / 8 * 128 + (R % 8 * 16 + o.val) = _
    omega
  refine (HostLayout.unflatten_apply _ (⟨R / 8, by omega⟩ : Fin 262144) (⟨R % 8 * 16 + o.val, by omega⟩ : Fin 128) B S P o hrc).trans ?_
  show rowsOutAt (hostRows x) (hostKron hostEye M) (hostTile b16) (⟨R / 8, by omega⟩ : Fin 262144) (⟨R % 8 * 16 + o.val, by omega⟩ : Fin 128) = _
  unfold rowsOutAt
  refine congrArg₂ (· + ·) ?_ ?_
  · refine (SumWindow.sum_window 128 16 (R % 8 * 16) (by omega) _ (fun k hk => ?_)).trans (Finset.sum_congr rfl fun i _ => ?_)
    · -- outside the 16-block the matrix's entry is zero
      rw [mat_entry, if_neg (by show ¬ k.val / 16 = (R % 8 * 16 + o.val) / 16; have := k.isLt; omega), mul_zero]
    · -- inside it: the row's entry `i` against `M[i, o]`
      have hi := i.isLt
      rw [mat_entry, if_pos (by show (R % 8 * 16 + i.val) / 16 = (R % 8 * 16 + o.val) / 16; omega)]
      refine congrArg₂ (· * ·) ?_ ?_
      · exact HostLayout.flatten_apply x _ _ B S P i (by
          show R / 8 * 128 + (R % 8 * 16 + i.val) = _; omega)
      · refine congrArg M ?_
        refine congrArg₂ ix2 (Fin.ext ?_) (Fin.ext ?_)
        · show (R % 8 * 16 + i.val) % 16 = i.val; omega
        · show (R % 8 * 16 + o.val) % 16 = o.val; omega
  · refine (HostLayout.tile_apply b16 (0 : Fin 1) (⟨R % 8 * 16 + o.val, by omega⟩ : Fin 128)).trans ?_
    refine congrArg b16 (congrArg ix1 (Fin.ext ?_))
    show (R % 8 * 16 + o.val) % 16 = o.val
    omega

/-- A 16-term sum against a column that vanishes outside one grade's window is the sum over the window. -/
theorem grade_sum (d lo : Nat) (h : lo + d ≤ 16) (row col : Fin 16 → EReal) (wrow : Fin d → EReal)
    (hin : ∀ k : Fin d, col (SumWindow.shift 16 d lo h k) = wrow k)
    (hout : ∀ i : Fin 16, ¬(lo ≤ i.val ∧ i.val < lo + d) → col i = 0) :
    ∑ i : Fin 16, row i * col i = ∑ k : Fin d, row (SumWindow.shift 16 d lo h k) * wrow k := by
  refine (SumWindow.sum_window 16 d lo h _ (fun i hi => ?_)).trans (Finset.sum_congr rfl fun k _ => ?_)
  · rw [hout i hi, mul_zero]
  · rw [hin k]

end Cert.KernelIdeal.Bridge

end
-- ==== Proof.LibBlockScatter.lean ====
import Idealize.ShloMosaic.Lib.ValueIdx
import Idealize.ShloMosaic.PureOps.ShapeOps

/-!
# A host scatter that overwrites one square block, read at an index

The operand is an `n × n` array, the scatter indices are ONE index vector `[off, off]` of length 2, and the
updates are a `d × d` array; both update axes are window axes (`update_window_dims = [0, 1]`), no operand axis is
inserted, component `c` of the index vector is the start on operand axis `c`
(`scatter_dims_to_operand_dims = [0, 1]`, `index_vector_dim = 0`), and the body returns the update (a "set").

On operand axis `a` the start of the window is the index vector's component `a` read as a signed integer, and the
window coordinate of update entry `(p, q)` is `p` on axis 0 and `q` on axis 1. So when the index vector reads
`off` on both axes and `off + d ≤ n`, update entry `(p, q)` lands at `(off + p, off + q)`, always inside the operand
(`resultIdx_eq`). The scatter is the left fold of "write the update entry where it lands" over all update entries.
Read at ONE operand entry `(i, o)`, such a fold is the LAST entry written there, or the operand's entry when none
is (`foldl_miss`, `foldl_hit`). The landing map `(p, q) ↦ (off + p, off + q)` is injective, so the only update entry
that can land at `(i, o)` is `(i − off, o − off)`, and it exists exactly when `off ≤ i < off + d` and
`off ≤ o < off + d`. Hence (`scatter_block_set_apply`)

  result (i, o) = upd (i − off, o − off)   if off ≤ i < off + d and off ≤ o < off + d,
                = x (i, o)                 otherwise.
-/

open Idealize.ShloMosaic Idealize.ShloMosaic.ValueIdx

namespace BlockScatter

/-- The dimension numbers of the block scatter for an operand `[n, n]`, one index vector `[2]` and updates `[d, d]`;
    their conditions `wf` are decided on a program's literal shapes. -/
abbrev blockDims (n d : Nat) (wf : ScatterDims.WF ⟨2, ![n, n]⟩ ⟨1, ![2]⟩ ⟨2, ![d, d]⟩ [0, 1] [] [0, 1] 0) :
    ScatterDims ⟨2, ![n, n]⟩ ⟨1, ![2]⟩ ⟨2, ![d, d]⟩ where
  updateWindowDims := [0, 1]
  insertedWindowDims := []
  scatterDimsToOperandDims := [0, 1]
  indexVectorDim := 0
  wf := wf

/-- Where update entry `j = (p, q)` lands when the window starts at `(off, off)`: `(off + p, off + q)`. -/
abbrev land (n d off : Nat) (hoff : off + d ≤ n) (j : (⟨2, ![d, d]⟩ : Shape).Idx) : (⟨2, ![n, n]⟩ : Shape).Idx :=
  ix2 ⟨off + (j 0).val, by have := idx2_lt0 j; omega⟩ ⟨off + (j 1).val, by have := idx2_lt1 j; omega⟩

section Dims
variable {n d w : Nat} (wf : ScatterDims.WF ⟨2, ![n, n]⟩ ⟨1, ![2]⟩ ⟨2, ![d, d]⟩ [0, 1] [] [0, 1] 0)

/-- The window's start on operand axis `a` is component `a` of the index vector, read signed (whatever the update
    entry: there is one index vector). -/
theorem start_eq (idx : IVec ⟨1, ![2]⟩ w) (j : (⟨2, ![d, d]⟩ : Shape).Idx) (a : Fin 2) :
    (blockDims n d wf).start j idx a = (idx (ix1 a)).toInt := by
  unfold ScatterDims.start
  have ha : a ∈ (blockDims n d wf).scatterDimsToOperandDims := by
    match a with
    | ⟨0, _⟩ => exact List.mem_cons_self
    | ⟨1, _⟩ => exact List.mem_cons_of_mem _ List.mem_cons_self
  rw [dif_pos ha]
  congr 2
  funext b
  refine Fin.ext ?_
  match b, a with
  | ⟨0, _⟩, ⟨0, _⟩ => rfl
  | ⟨0, _⟩, ⟨1, _⟩ => rfl

/-- The window coordinate on operand axis `a` is the update entry's coordinate `a` (no axis is inserted, and window
    axis `a` of the updates goes to operand axis `a`). -/
theorem window_eq (j : (⟨2, ![d, d]⟩ : Shape).Idx) (a : Fin 2) :
    (blockDims n d wf).window j a = (j a).val := by
  unfold ScatterDims.window
  have ha : a ∈ (blockDims n d wf).sKept := by
    show a ∈ (List.finRange 2).filter (· ∉ ([] : List (Fin 2)))
    exact List.mem_filter.2 ⟨List.mem_finRange a, by simp⟩
  rw [dif_pos ha]
  match a with
  | ⟨0, _⟩ => rfl
  | ⟨1, _⟩ => rfl

/-- With the index vector reading `off` on both axes and `off + d ≤ n`, every update entry lands inside the operand,
    entry `(p, q)` at `(off + p, off + q)`. -/
theorem resultIdx_eq (idx : IVec ⟨1, ![2]⟩ w) (off : Nat)
    (h0 : (idx (ix1 (0 : Fin 2))).toInt = (off : Int)) (h1 : (idx (ix1 (1 : Fin 2))).toInt = (off : Int))
    (hoff : off + d ≤ n) (j : (⟨2, ![d, d]⟩ : Shape).Idx) :
    (blockDims n d wf).resultIdx? j idx = some (land n d off hoff j) := by
  have key : ∀ a : Fin 2, (blockDims n d wf).start j idx a + ((blockDims n d wf).window j a : Int)
      = (off : Int) + ((j a).val : Int) := by
    intro a
    rw [start_eq, window_eq]
    match a with
    | ⟨0, _⟩ => exact congrArg (· + _) h0
    | ⟨1, _⟩ => exact congrArg (· + _) h1
  have hsz : ∀ a : Fin 2, (⟨2, ![n, n]⟩ : Shape).size a = n := by
    intro a
    match a with
    | ⟨0, _⟩ => rfl
    | ⟨1, _⟩ => rfl
  have hjd : ∀ a : Fin 2, (j a).val < d := by
    intro a
    match a with
    | ⟨0, _⟩ => exact idx2_lt0 j
    | ⟨1, _⟩ => exact idx2_lt1 j
  unfold ScatterDims.resultIdx?
  split
  · congr 1
    funext a
    refine Fin.ext ?_
    match a with
    | ⟨0, _⟩ =>
      show ((blockDims n d wf).start j idx 0 + ((blockDims n d wf).window j 0 : Int)).toNat = off + (j 0).val
      rw [key 0]; omega
    | ⟨1, _⟩ =>
      show ((blockDims n d wf).start j idx 1 + ((blockDims n d wf).window j 1 : Int)).toNat = off + (j 1).val
      rw [key 1]; omega
  · rename_i h
    refine absurd (fun a => ?_) h
    rw [key a, hsz a]
    have := hjd a
    omega

end Dims

/-! ## A fold of point writes, read at one point -/

/-- A left fold of point writes (`j` writes `upd j` at `g j`) read at a point `t` that no write of the list hits: the
    starting function's value. -/
theorem foldl_miss {ι κ α : Type} [DecidableEq ι] (g : κ → ι) (upd : κ → α) (t : ι) :
    ∀ (L : List κ) (x : ι → α), (∀ j ∈ L, g j ≠ t) →
      (L.foldl (fun r j => fun i' => if i' = g j then upd j else r i') x) t = x t
  | [], _, _ => rfl
  | j :: L, x, h => by
    rw [List.foldl_cons, foldl_miss g upd t L _ (fun j' hj' => h j' (List.mem_cons_of_mem _ hj'))]
    exact if_neg (fun e => h j List.mem_cons_self e.symm)

/-- A left fold of point writes read at a point `t` that some write of the list hits, when every write of the list
    that hits `t` writes the same value `v` there: that value. -/
theorem foldl_hit {ι κ α : Type} [DecidableEq ι] (g : κ → ι) (upd : κ → α) (t : ι) (v : α) :
    ∀ (L : List κ) (x : ι → α), (∃ j ∈ L, g j = t) → (∀ j ∈ L, g j = t → upd j = v) →
      (L.foldl (fun r j => fun i' => if i' = g j then upd j else r i') x) t = v
  | [], _, h, _ => by obtain ⟨j, hj, _⟩ := h; cases hj
  | j :: L, x, h, hv => by
    rw [List.foldl_cons]
    by_cases hL : ∃ j' ∈ L, g j' = t
    · exact foldl_hit g upd t v L _ hL (fun j' hj' => hv j' (List.mem_cons_of_mem _ hj'))
    · have hm : ∀ j' ∈ L, g j' ≠ t := fun j' hj' e => hL ⟨j', hj', e⟩
      rw [foldl_miss g upd t L _ hm]
      obtain ⟨j', hj', e⟩ := h
      rcases List.mem_cons.1 hj' with rfl | hj''
      · rw [if_pos e.symm]; exact hv _ List.mem_cons_self e
      · exact absurd e (hm j' hj'')

/-- An update entry that lands at `(i, o)` has coordinates `i − off` and `o − off` (as sums, for `omega`). -/
theorem land_eq {n d off : Nat} (hoff : off + d ≤ n) (j : (⟨2, ![d, d]⟩ : Shape).Idx) (i o : Fin n)
    (e : land n d off hoff j = ix2 i o) : off + (j 0).val = i.val ∧ off + (j 1).val = o.val :=
  ⟨congrArg Fin.val (congrFun e 0), congrArg Fin.val (congrFun e 1)⟩

/-! ## The scatter read at an index -/

/-- THE BLOCK SCATTER READ AT `(i, o)`: inside the block `[off, off + d) × [off, off + d)` the update's entry
    `(i − off, o − off)`, outside it the operand's entry. -/
theorem scatter_block_set_apply {α : Type} {n d w : Nat}
    (wf : ScatterDims.WF ⟨2, ![n, n]⟩ ⟨1, ![2]⟩ ⟨2, ![d, d]⟩ [0, 1] [] [0, 1] 0)
    (x : (⟨2, ![n, n]⟩ : Shape).Idx → α) (idx : IVec ⟨1, ![2]⟩ w) (upd : (⟨2, ![d, d]⟩ : Shape).Idx → α) (off : Nat)
    (h0 : (idx (ix1 (0 : Fin 2))).toInt = (off : Int)) (h1 : (idx (ix1 (1 : Fin 2))).toInt = (off : Int))
    (hoff : off + d ≤ n) (i o : Fin n) :
    Host.scatter (blockDims n d wf) (fun _ v => v) x idx upd (ix2 i o)
      = if h : off ≤ i.val ∧ i.val < off + d ∧ off ≤ o.val ∧ o.val < off + d then
          upd (ix2 ⟨i.val - off, by omega⟩ ⟨o.val - off, by omega⟩)
        else x (ix2 i o) := by
  unfold Host.scatter
  simp only [resultIdx_eq wf idx off h0 h1 hoff]
  by_cases h : off ≤ i.val ∧ i.val < off + d ∧ off ≤ o.val ∧ o.val < off + d
  · rw [dif_pos h]
    refine foldl_hit (fun m => land n d off hoff ((⟨2, ![d, d]⟩ : Shape).rowMajor.symm m))
      (fun m => upd ((⟨2, ![d, d]⟩ : Shape).rowMajor.symm m)) (ix2 i o) _ (List.finRange _) x ?_ ?_
    · refine ⟨(⟨2, ![d, d]⟩ : Shape).rowMajor (ix2 ⟨i.val - off, by omega⟩ ⟨o.val - off, by omega⟩),
        List.mem_finRange _, ?_⟩
      rw [Equiv.symm_apply_apply]
      funext a
      refine Fin.ext ?_
      match a with
      | ⟨0, _⟩ => show off + (i.val - off) = i.val; omega
      | ⟨1, _⟩ => show off + (o.val - off) = o.val; omega
    · intro m _ e
      obtain ⟨e0, e1⟩ := land_eq hoff _ i o e
      refine congrArg upd ?_
      funext a
      refine Fin.ext ?_
      match a with
      | ⟨0, _⟩ => show ((⟨2, ![d, d]⟩ : Shape).rowMajor.symm m 0).val = i.val - off; omega
      | ⟨1, _⟩ => show ((⟨2, ![d, d]⟩ : Shape).rowMajor.symm m 1).val = o.val - off; omega
  · rw [dif_neg h]
    refine foldl_miss (fun m => land n d off hoff ((⟨2, ![d, d]⟩ : Shape).rowMajor.symm m))
      (fun m => upd ((⟨2, ![d, d]⟩ : Shape).rowMajor.symm m)) (ix2 i o) (List.finRange _) x ?_
    intro m _ e
    obtain ⟨e0, e1⟩ := land_eq hoff _ i o e
    have := idx2_lt0 ((⟨2, ![d, d]⟩ : Shape).rowMajor.symm m)
    have := idx2_lt1 ((⟨2, ![d, d]⟩ : Shape).rowMajor.symm m)
    exact h (by omega)

/-! ## Small 32-bit words read as signed integers -/

/-- A 32-bit word below `2^31` reads, signed, as the natural number it was made from. -/
theorem toInt_ofNat32 (k : Nat) (hk : k < 2147483648) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

theorem toInt_0 : (0#32 : BitVec 32).toInt = ((0 : Nat) : Int) := by decide
theorem toInt_1 : (1#32 : BitVec 32).toInt = ((1 : Nat) : Int) := by decide
theorem toInt_5 : (5#32 : BitVec 32).toInt = ((5 : Nat) : Int) := by decide
theorem toInt_11 : (11#32 : BitVec 32).toInt = ((11 : Nat) : Int) := by decide
theorem toInt_15 : (15#32 : BitVec 32).toInt = ((15 : Nat) : Int) := by decide

end BlockScatter
-- ==== Proof.HostMatrix.lean ====
/-
  THE BLOCK-DIAGONAL 16 × 16 MATRIX IN CLOSED FORM.

  The matrix is built from zeros by five block writes, one per grade, at the offsets 0, 1, 5, 11, 15 on the diagonal, of
  sizes 1, 4, 6, 4, 1; each write puts the TRANSPOSED weight of its grade over the square block `[lo, lo + d) × [lo, lo + d)`.
  The index vector of each write is `[k, k]` (two one-entry pieces joined), so both of its entries read `k`; a square block
  write read at `(i, o)` is the update's entry `(i − lo, o − lo)` inside the block and the array's entry outside; and the
  transposed weight's entry `(p, q)` is the weight's entry `(q, p)`. Reading the five writes from the last one inwards
  gives a chain of tests ending in the zero the matrix started from: entry `(i, o)` is `w_g (o − lo, i − lo)` when `i` and
  `o` both lie in grade `g`'s span, and `0` when they lie in no common span. The five spans partition `0 … 15`, so on a
  column `o` of grade `g` the rows of that grade read the weight and every other row reads zero.
-/
import proofs.«162412_j34892314313418_2_alg».proof.Proof.HostTerms
import proofs.«162412_j34892314313418_2_alg».proof.Proof.LibBlockScatter
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.HostMatrix

open Cert.KernelIdeal Cert.KernelIdeal.Gen Cert.KernelIdeal.HostTerms
open Idealize.ShloMosaic Idealize.ShloMosaic.ValueIdx

/-! ## The scatter index `[k, k]` read at its two entries -/

/-- The one-entry piece of the index vector reads `k`. -/
theorem piece_apply (k : BitVec 32) (j : S1.Idx) :
    broadcastInDim S1 ![] bcast_S_S1 (constantI S_ 32 k) j = k := rfl

/-- Entry 0 of the index vector `[k, k]` is `k`. -/
theorem hostIdx_apply0 (k : BitVec 32) : hostIdx k (ix1 (0 : Fin 2)) = k := by
  unfold hostIdx
  refine (concatenate_pair_apply_left (0 : Fin S2.rank) _ _ concatenates_S1_S1_S2_d0 (ix1 (0 : Fin 2)) rfl
    (ix1 (0 : Fin 1)) (fun b => ?_)).trans (piece_apply k _)
  match b with
  | ⟨0, _⟩ => rfl

/-- Entry 1 of the index vector `[k, k]` is `k`. -/
theorem hostIdx_apply1 (k : BitVec 32) : hostIdx k (ix1 (1 : Fin 2)) = k := by
  unfold hostIdx
  refine (concatenate_pair_apply_right (0 : Fin S2.rank) _ _ concatenates_S1_S1_S2_d0 (ix1 (1 : Fin 2)) rfl rfl
    (ix1 (0 : Fin 1)) (fun b hb => ?_) rfl).trans (piece_apply k _)
  match b with
  | ⟨0, _⟩ => exact absurd rfl hb

theorem hostIdx_toInt0 (k : BitVec 32) : (hostIdx k (ix1 (0 : Fin 2))).toInt = k.toInt :=
  congrArg BitVec.toInt (hostIdx_apply0 k)
theorem hostIdx_toInt1 (k : BitVec 32) : (hostIdx k (ix1 (1 : Fin 2))).toInt = k.toInt :=
  congrArg BitVec.toInt (hostIdx_apply1 k)

/-! ## One grade's scatter read at an index -/

/-- A square block scatter of a TRANSPOSED `d × d` weight at `(off, off)` into a 16 × 16 array, read at `(i, o)`:
    inside the block the weight's entry `(o − off, i − off)`, outside it the array's entry. -/
theorem scatter_T_apply {α : Type} {d : Nat}
    (wf : ScatterDims.WF ⟨2, ![16, 16]⟩ ⟨1, ![2]⟩ ⟨2, ![d, d]⟩ [0, 1] [] [0, 1] 0)
    (ht : (⟨2, ![d, d]⟩ : Shape).Transposes [1, 0] ⟨2, ![d, d]⟩)
    (X : (⟨2, ![16, 16]⟩ : Shape).Idx → α) (k : BitVec 32) (off : Nat) (hk : k.toInt = (off : Int))
    (w : (⟨2, ![d, d]⟩ : Shape).Idx → α) (hoff : off + d ≤ 16) (i o : Fin 16) :
    Host.scatter (BlockScatter.blockDims 16 d wf) (fun _ b => b) X (hostIdx k) (transpose ⟨2, ![d, d]⟩ [1, 0] w ht) (ix2 i o)
      = if h : off ≤ i.val ∧ i.val < off + d ∧ off ≤ o.val ∧ o.val < off + d then
          w (ix2 ⟨o.val - off, by omega⟩ ⟨i.val - off, by omega⟩)
        else X (ix2 i o) := by
  refine (BlockScatter.scatter_block_set_apply wf X (hostIdx k) _ off ((hostIdx_toInt0 k).trans hk)
    ((hostIdx_toInt1 k).trans hk) hoff i o).trans ?_
  by_cases h : off ≤ i.val ∧ i.val < off + d ∧ off ≤ o.val ∧ o.val < off + d
  · rw [dif_pos h, dif_pos h]
    exact transpose_ix2_apply w ht _ _
  · rw [dif_neg h, dif_neg h]

/-! ## The transposes read at an index -/

theorem transpose_S1x1_apply {α : Type} (w : S1x1.Idx → α) (p q : Fin 1) :
    transpose S1x1 [1, 0] w transposes_S1x1_S1x1_1_0 (ix2 p q) = w (ix2 q p) :=
  transpose_ix2_apply w _ p q
theorem transpose_S4x4_apply {α : Type} (w : S4x4.Idx → α) (p q : Fin 4) :
    transpose S4x4 [1, 0] w transposes_S4x4_S4x4_1_0 (ix2 p q) = w (ix2 q p) :=
  transpose_ix2_apply w _ p q
theorem transpose_S6x6_apply {α : Type} (w : S6x6.Idx → α) (p q : Fin 6) :
    transpose S6x6 [1, 0] w transposes_S6x6_S6x6_1_0 (ix2 p q) = w (ix2 q p) :=
  transpose_ix2_apply w _ p q

/-! ## The closed form of the block-diagonal matrix -/

section Closed
variable (w0 : FVec Ideal S1x1 .f32) (w1 : FVec Ideal S4x4 .f32) (w2 : FVec Ideal S6x6 .f32)
  (w3 : FVec Ideal S4x4 .f32) (w4 : FVec Ideal S1x1 .f32)

/-- The zero array the scatters start from reads the extended real `0`. -/
theorem zeros_apply (j : S16x16.Idx) :
    broadcastInDim S16x16 ![] bcast_S_S16x16 (constant (F := Ideal) S_ .f32 0x00000000#32) j = 0 :=
  Ideal.ofBits_zero_f32

/-- THE MATRIX READ AT `(i, o)`: on the diagonal block of grade `g` (rows and columns `lo ≤ · < lo + d`) the
    TRANSPOSED weight of that grade, entry `(o − lo, i − lo)`; off the five blocks, zero. The blocks are disjoint, so
    the order of the tests (the last block written first) does not matter to the value. -/
theorem hostM16_apply (i o : Fin 16) :
    hostM16 w0 w1 w2 w3 w4 (ix2 i o) =
      if h4 : 15 ≤ i.val ∧ i.val < 16 ∧ 15 ≤ o.val ∧ o.val < 16 then w4 (ix2 ⟨o.val - 15, by omega⟩ ⟨i.val - 15, by omega⟩)
      else if h3 : 11 ≤ i.val ∧ i.val < 15 ∧ 11 ≤ o.val ∧ o.val < 15 then w3 (ix2 ⟨o.val - 11, by omega⟩ ⟨i.val - 11, by omega⟩)
      else if h2 : 5 ≤ i.val ∧ i.val < 11 ∧ 5 ≤ o.val ∧ o.val < 11 then w2 (ix2 ⟨o.val - 5, by omega⟩ ⟨i.val - 5, by omega⟩)
      else if h1 : 1 ≤ i.val ∧ i.val < 5 ∧ 1 ≤ o.val ∧ o.val < 5 then w1 (ix2 ⟨o.val - 1, by omega⟩ ⟨i.val - 1, by omega⟩)
      else if h0 : 0 ≤ i.val ∧ i.val < 1 ∧ 0 ≤ o.val ∧ o.val < 1 then w0 (ix2 ⟨o.val - 0, by omega⟩ ⟨i.val - 0, by omega⟩)
      else 0 := by
  unfold hostM16
  refine (scatter_T_apply (d := 1) scatter_S16x16_S2_S1x1_01_n_01_0_wf transposes_S1x1_S1x1_1_0 _ 15#32 15
    BlockScatter.toInt_15 w4 (by decide) i o).trans ?_
  refine dite_congr rfl (fun _ => rfl) (fun _ => ?_)
  refine (scatter_T_apply (d := 4) scatter_S16x16_S2_S4x4_01_n_01_0_wf transposes_S4x4_S4x4_1_0 _ 11#32 11
    BlockScatter.toInt_11 w3 (by decide) i o).trans ?_
  refine dite_congr rfl (fun _ => rfl) (fun _ => ?_)
  refine (scatter_T_apply (d := 6) scatter_S16x16_S2_S6x6_01_n_01_0_wf transposes_S6x6_S6x6_1_0 _ 5#32 5
    BlockScatter.toInt_5 w2 (by decide) i o).trans ?_
  refine dite_congr rfl (fun _ => rfl) (fun _ => ?_)
  refine (scatter_T_apply (d := 4) scatter_S16x16_S2_S4x4_01_n_01_0_wf transposes_S4x4_S4x4_1_0 _ 1#32 1
    BlockScatter.toInt_1 w1 (by decide) i o).trans ?_
  refine dite_congr rfl (fun _ => rfl) (fun _ => ?_)
  refine (scatter_T_apply (d := 1) scatter_S16x16_S2_S1x1_01_n_01_0_wf transposes_S1x1_S1x1_1_0 _ 0#32 0
    BlockScatter.toInt_0 w0 (by decide) i o).trans ?_
  refine dite_congr rfl (fun _ => rfl) (fun _ => ?_)
  exact zeros_apply _

end Closed

/-! ## What the region's proof cites: on a column of grade `g`, the rows of that grade read the weight, all other rows zero -/

section Grades
variable (w0 : FVec Ideal S1x1 .f32) (w1 : FVec Ideal S4x4 .f32) (w2 : FVec Ideal S6x6 .f32)
  (w3 : FVec Ideal S4x4 .f32) (w4 : FVec Ideal S1x1 .f32)

theorem M16_in_0 (i o : Fin 16) (hi : 0 ≤ i.val ∧ i.val < 1) (ho : 0 ≤ o.val ∧ o.val < 1) :
    hostM16 w0 w1 w2 w3 w4 (ix2 i o) = w0 (ix2 ⟨o.val - 0, by omega⟩ ⟨i.val - 0, by omega⟩) := by
  rw [hostM16_apply]; split_ifs <;> first | rfl | omega
theorem M16_out_0 (i o : Fin 16) (hi : ¬(0 ≤ i.val ∧ i.val < 1)) (ho : 0 ≤ o.val ∧ o.val < 1) :
    hostM16 w0 w1 w2 w3 w4 (ix2 i o) = 0 := by
  rw [hostM16_apply]; split_ifs <;> first | rfl | omega

theorem M16_in_1 (i o : Fin 16) (hi : 1 ≤ i.val ∧ i.val < 5) (ho : 1 ≤ o.val ∧ o.val < 5) :
    hostM16 w0 w1 w2 w3 w4 (ix2 i o) = w1 (ix2 ⟨o.val - 1, by omega⟩ ⟨i.val - 1, by omega⟩) := by
  rw [hostM16_apply]; split_ifs <;> first | rfl | omega
theorem M16_out_1 (i o : Fin 16) (hi : ¬(1 ≤ i.val ∧ i.val < 5)) (ho : 1 ≤ o.val ∧ o.val < 5) :
    hostM16 w0 w1 w2 w3 w4 (ix2 i o) = 0 := by
  rw [hostM16_apply]; split_ifs <;> first | rfl | omega

theorem M16_in_2 (i o : Fin 16) (hi : 5 ≤ i.val ∧ i.val < 11) (ho : 5 ≤ o.val ∧ o.val < 11) :
    hostM16 w0 w1 w2 w3 w4 (ix2 i o) = w2 (ix2 ⟨o.val - 5, by omega⟩ ⟨i.val - 5, by omega⟩) := by
  rw [hostM16_apply]; split_ifs <;> first | rfl | omega
theorem M16_out_2 (i o : Fin 16) (hi : ¬(5 ≤ i.val ∧ i.val < 11)) (ho : 5 ≤ o.val ∧ o.val < 11) :
    hostM16 w0 w1 w2 w3 w4 (ix2 i o) = 0 := by
  rw [hostM16_apply]; split_ifs <;> first | rfl | omega

theorem M16_in_3 (i o : Fin 16) (hi : 11 ≤ i.val ∧ i.val < 15) (ho : 11 ≤ o.val ∧ o.val < 15) :
    hostM16 w0 w1 w2 w3 w4 (ix2 i o) = w3 (ix2 ⟨o.val - 11, by omega⟩ ⟨i.val - 11, by omega⟩) := by
  rw [hostM16_apply]; split_ifs <;> first | rfl | omega
theorem M16_out_3 (i o : Fin 16) (hi : ¬(11 ≤ i.val ∧ i.val < 15)) (ho : 11 ≤ o.val ∧ o.val < 15) :
    hostM16 w0 w1 w2 w3 w4 (ix2 i o) = 0 := by
  rw [hostM16_apply]; split_ifs <;> first | rfl | omega

theorem M16_in_4 (i o : Fin 16) (hi : 15 ≤ i.val ∧ i.val < 16) (ho : 15 ≤ o.val ∧ o.val < 16) :
    hostM16 w0 w1 w2 w3 w4 (ix2 i o) = w4 (ix2 ⟨o.val - 15, by omega⟩ ⟨i.val - 15, by omega⟩) := by
  rw [hostM16_apply]; split_ifs <;> first | rfl | omega
theorem M16_out_4 (i o : Fin 16) (hi : ¬(15 ≤ i.val ∧ i.val < 16)) (ho : 15 ≤ o.val ∧ o.val < 16) :
    hostM16 w0 w1 w2 w3 w4 (ix2 i o) = 0 := by
  rw [hostM16_apply]; split_ifs <;> first | rfl | omega

end Grades

end Cert.KernelIdeal.HostMatrix

end
-- ==== Proof.Spec.lean ====
/-
  THE SPECIFICATION: a block-diagonal linear map on the last axis of `x : [8, 2048, 128, 16]`.

  The 16 entries of a row split into five consecutive grades of widths 1, 4, 6, 4, 1 (offsets 0, 1, 5, 11, 15). Grade `g`
  has its own weight `w_g : [d_g, d_g]` and bias `b_g : [d_g]`, and entry `lo_g + o` of the result's row is
  `Σ_k x[row, lo_g + k] · w_g[o, k] + b_g[o]` on the extended reals: only the entries of the same grade are read.
-/
import Idealize.ShloMosaic.PureOps.Ideal
import Idealize.ShloMosaic.Lib.ValueIdx

noncomputable section

namespace GradeLinear

open Idealize.ShloMosaic Idealize.ShloMosaic.ValueIdx

/-- The array's shape, a weight's and a bias's. -/
abbrev SX : Shape := ⟨4, ![8, 2048, 128, 16]⟩
abbrev SW (d : Nat) : Shape := ⟨2, ![d, d]⟩
abbrev SB (d : Nat) : Shape := ⟨1, ![d]⟩

/-- One grade of width `d` at offset `lo`: entry `o` of the grade, in row `(B, S, P)`, is the row's entries
    `lo … lo + d - 1` against row `o` of the weight, plus the bias's entry `o`. -/
def grade (d lo : Nat) (h : lo + d ≤ 16) (x : SX.Idx → EReal) (w : (SW d).Idx → EReal) (b : (SB d).Idx → EReal)
    (B : Fin 8) (S : Fin 2048) (P : Fin 128) (o : Fin d) : EReal :=
  (∑ k : Fin d, x (ix4 B S P (⟨lo + k.val, by have := k.isLt; omega⟩ : Fin 16)) * w (ix2 o k)) + b (ix1 o)

/-- The result at row `(B, S, P)`, entry `o`: the grade `o` falls in, at `o` less the grade's offset. -/
def entry (x : SX.Idx → EReal)
    (w0 : (SW 1).Idx → EReal) (b0 : (SB 1).Idx → EReal) (w1 : (SW 4).Idx → EReal) (b1 : (SB 4).Idx → EReal)
    (w2 : (SW 6).Idx → EReal) (b2 : (SB 6).Idx → EReal) (w3 : (SW 4).Idx → EReal) (b3 : (SB 4).Idx → EReal)
    (w4 : (SW 1).Idx → EReal) (b4 : (SB 1).Idx → EReal)
    (B : Fin 8) (S : Fin 2048) (P : Fin 128) (o : Fin 16) : EReal :=
  if h0 : o.val < 1 then grade 1 0 (by omega) x w0 b0 B S P ⟨o.val - 0, by omega⟩
  else if h1 : o.val < 5 then grade 4 1 (by omega) x w1 b1 B S P ⟨o.val - 1, by omega⟩
  else if h2 : o.val < 11 then grade 6 5 (by omega) x w2 b2 B S P ⟨o.val - 5, by omega⟩
  else if h3 : o.val < 15 then grade 4 11 (by omega) x w3 b3 B S P ⟨o.val - 11, by omega⟩
  else grade 1 15 (by omega) x w4 b4 B S P ⟨o.val - 15, by have := o.isLt; omega⟩

/-- The whole result array, index by index. -/
def G (x : SX.Idx → EReal)
    (w0 : (SW 1).Idx → EReal) (b0 : (SB 1).Idx → EReal) (w1 : (SW 4).Idx → EReal) (b1 : (SB 4).Idx → EReal)
    (w2 : (SW 6).Idx → EReal) (b2 : (SB 6).Idx → EReal) (w3 : (SW 4).Idx → EReal) (b3 : (SB 4).Idx → EReal)
    (w4 : (SW 1).Idx → EReal) (b4 : (SB 1).Idx → EReal) : SX.Idx → EReal :=
  fun i => entry x w0 b0 w1 b1 w2 b2 w3 b3 w4 b4 (i 0) (i 1) (i 2) (i 3)

theorem G_apply (x : SX.Idx → EReal)
    (w0 : (SW 1).Idx → EReal) (b0 : (SB 1).Idx → EReal) (w1 : (SW 4).Idx → EReal) (b1 : (SB 4).Idx → EReal)
    (w2 : (SW 6).Idx → EReal) (b2 : (SB 6).Idx → EReal) (w3 : (SW 4).Idx → EReal) (b3 : (SB 4).Idx → EReal)
    (w4 : (SW 1).Idx → EReal) (b4 : (SB 1).Idx → EReal) (B : Fin 8) (S : Fin 2048) (P : Fin 128) (o : Fin 16) :
    G x w0 b0 w1 b1 w2 b2 w3 b3 w4 b4 (ix4 B S P o) = entry x w0 b0 w1 b1 w2 b2 w3 b3 w4 b4 B S P o := rfl

end GradeLinear

end
-- ==== Proof.BridgeGrades.lean ====
/-
  THE KERNEL'S RESULT IS THE SPECIFICATION: the five grades.

  With `M` the block-diagonal matrix, column `o` of `M` is zero outside the rows of `o`'s grade and, inside, row `o - lo` of that
  grade's weight read along its second axis (the blocks hold the TRANSPOSED weights). So `Σ_i x[B,S,P,i] · M[i,o]` is the sum over
  the grade's entries `Σ_k x[B,S,P,lo+k] · w_g[o-lo, k]`, and the joined bias at `o` is `b_g[o - lo]`: the specification's entry.
-/
import proofs.«162412_j34892314313418_2_alg».proof.Proof.Bridge
import proofs.«162412_j34892314313418_2_alg».proof.Proof.HostMatrix
import proofs.«162412_j34892314313418_2_alg».proof.Proof.Spec

noncomputable section

namespace Cert.KernelIdeal.Bridge

open Cert.KernelIdeal Cert.KernelIdeal.Gen Cert.KernelIdeal.HostTerms Cert.KernelIdeal.HandValue
open Idealize.ShloMosaic Idealize.ShloMosaic.ValueIdx

/-- The kernel's result array — rows × (identity ⊗ block-diagonal matrix) + tiled bias, read back as `[8, 2048, 128, 16]` — is the
    block-diagonal linear map of the specification, entry by entry. -/
theorem kernel_is_G (x : FVec Ideal S8x2048x128x16 .f32)
    (w0 : FVec Ideal S1x1 .f32) (b0 : FVec Ideal S1 .f32) (w1 : FVec Ideal S4x4 .f32) (b1 : FVec Ideal S4 .f32)
    (w2 : FVec Ideal S6x6 .f32) (b2 : FVec Ideal S6 .f32) (w3 : FVec Ideal S4x4 .f32) (b3 : FVec Ideal S4 .f32)
    (w4 : FVec Ideal S1x1 .f32) (b4 : FVec Ideal S1 .f32) :
    shapeCast S8x2048x128x16
        (rowsOut (hostRows x) (hostKron hostEye (hostM16 w0 w1 w2 w3 w4)) (hostTile (hostBias16 b0 b1 b2 b3 b4)))
        shapeCasts_S262144x128_S8x2048x128x16
      = GradeLinear.G x w0 b0 w1 b1 w2 b2 w3 b3 w4 b4 := by
  funext j
  obtain ⟨B, S, P, o, rfl⟩ : ∃ (B : Fin 8) (S : Fin 2048) (P : Fin 128) (o : Fin 16), j = ix4 B S P o :=
    ⟨j 0, j 1, j 2, j 3, eq_ix4 j⟩
  refine (entry_eq_col x (hostM16 w0 w1 w2 w3 w4) (hostBias16 b0 b1 b2 b3 b4) B S P o).trans ?_
  show _ = GradeLinear.entry x w0 b0 w1 b1 w2 b2 w3 b3 w4 b4 B S P o
  unfold GradeLinear.entry
  have ho := o.isLt
  by_cases h0 : o.val < 1
  · rw [dif_pos h0]
    unfold GradeLinear.grade
    refine congrArg₂ (· + ·) ?_ ?_
    · exact grade_sum 1 0 (by omega) (fun i => x (ix4 B S P i)) (fun i => hostM16 w0 w1 w2 w3 w4 (ix2 i o))
        (fun k => w0 (ix2 (⟨o.val - 0, by omega⟩ : Fin 1) k))
        (fun k => (HostMatrix.M16_in_0 w0 w1 w2 w3 w4 (SumWindow.shift 16 1 0 (by omega) k) o
            ⟨by show 0 ≤ 0 + k.val; omega, by show 0 + k.val < 1; have := k.isLt; omega⟩ ⟨by omega, by omega⟩).trans
          (congrArg w0 (congrArg₂ ix2 rfl (Fin.ext (by show 0 + k.val - 0 = k.val; omega)))))
        (fun i hi => HostMatrix.M16_out_0 w0 w1 w2 w3 w4 i o (by show ¬(0 ≤ i.val ∧ i.val < 1); omega) ⟨by omega, by omega⟩)
    · exact HostLayout.bias_apply_0 b0 b1 b2 b3 b4 o h0
  rw [dif_neg h0]
  by_cases h1 : o.val < 5
  · rw [dif_pos h1]
    unfold GradeLinear.grade
    refine congrArg₂ (· + ·) ?_ ?_
    · exact grade_sum 4 1 (by omega) (fun i => x (ix4 B S P i)) (fun i => hostM16 w0 w1 w2 w3 w4 (ix2 i o))
        (fun k => w1 (ix2 (⟨o.val - 1, by omega⟩ : Fin 4) k))
        (fun k => (HostMatrix.M16_in_1 w0 w1 w2 w3 w4 (SumWindow.shift 16 4 1 (by omega) k) o
            ⟨by show 1 ≤ 1 + k.val; omega, by show 1 + k.val < 5; have := k.isLt; omega⟩ ⟨by omega, by omega⟩).trans
          (congrArg w1 (congrArg₂ ix2 rfl (Fin.ext (by show 1 + k.val - 1 = k.val; omega)))))
        (fun i hi => HostMatrix.M16_out_1 w0 w1 w2 w3 w4 i o (by show ¬(1 ≤ i.val ∧ i.val < 5); omega) ⟨by omega, by omega⟩)
    · exact HostLayout.bias_apply_1 b0 b1 b2 b3 b4 o (by omega) (by omega)
  rw [dif_neg h1]
  by_cases h2 : o.val < 11
  · rw [dif_pos h2]
    unfold GradeLinear.grade
    refine congrArg₂ (· + ·) ?_ ?_
    · exact grade_sum 6 5 (by omega) (fun i => x (ix4 B S P i)) (fun i => hostM16 w0 w1 w2 w3 w4 (ix2 i o))
        (fun k => w2 (ix2 (⟨o.val - 5, by omega⟩ : Fin 6) k))
        (fun k => (HostMatrix.M16_in_2 w0 w1 w2 w3 w4 (SumWindow.shift 16 6 5 (by omega) k) o
            ⟨by show 5 ≤ 5 + k.val; omega, by show 5 + k.val < 11; have := k.isLt; omega⟩ ⟨by omega, by omega⟩).trans
          (congrArg w2 (congrArg₂ ix2 rfl (Fin.ext (by show 5 + k.val - 5 = k.val; omega)))))
        (fun i hi => HostMatrix.M16_out_2 w0 w1 w2 w3 w4 i o (by show ¬(5 ≤ i.val ∧ i.val < 11); omega) ⟨by omega, by omega⟩)
    · exact HostLayout.bias_apply_2 b0 b1 b2 b3 b4 o (by omega) (by omega)
  rw [dif_neg h2]
  by_cases h3 : o.val < 15
  · rw [dif_pos h3]
    unfold GradeLinear.grade
    refine congrArg₂ (· + ·) ?_ ?_
    · exact grade_sum 4 11 (by omega) (fun i => x (ix4 B S P i)) (fun i => hostM16 w0 w1 w2 w3 w4 (ix2 i o))
        (fun k => w3 (ix2 (⟨o.val - 11, by omega⟩ : Fin 4) k))
        (fun k => (HostMatrix.M16_in_3 w0 w1 w2 w3 w4 (SumWindow.shift 16 4 11 (by omega) k) o
            ⟨by show 11 ≤ 11 + k.val; omega, by show 11 + k.val < 15; have := k.isLt; omega⟩ ⟨by omega, by omega⟩).trans
          (congrArg w3 (congrArg₂ ix2 rfl (Fin.ext (by show 11 + k.val - 11 = k.val; omega)))))
        (fun i hi => HostMatrix.M16_out_3 w0 w1 w2 w3 w4 i o (by show ¬(11 ≤ i.val ∧ i.val < 15); omega) ⟨by omega, by omega⟩)
    · exact HostLayout.bias_apply_3 b0 b1 b2 b3 b4 o (by omega) (by omega)
  rw [dif_neg h3]
  unfold GradeLinear.grade
  refine congrArg₂ (· + ·) ?_ ?_
  · exact grade_sum 1 15 (by omega) (fun i => x (ix4 B S P i)) (fun i => hostM16 w0 w1 w2 w3 w4 (ix2 i o))
      (fun k => w4 (ix2 (⟨o.val - 15, by omega⟩ : Fin 1) k))
      (fun k => (HostMatrix.M16_in_4 w0 w1 w2 w3 w4 (SumWindow.shift 16 1 15 (by omega) k) o
          ⟨by show 15 ≤ 15 + k.val; omega, by show 15 + k.val < 16; have := k.isLt; omega⟩ ⟨by omega, by omega⟩).trans
        (congrArg w4 (congrArg₂ ix2 rfl (Fin.ext (by show 15 + k.val - 15 = k.val; omega)))))
      (fun i hi => HostMatrix.M16_out_4 w0 w1 w2 w3 w4 i o (by show ¬(15 ≤ i.val ∧ i.val < 16); omega) ⟨by omega, by omega⟩)
  · exact HostLayout.bias_apply_4 b0 b1 b2 b3 b4 o (by omega)

end Cert.KernelIdeal.Bridge

end
-- ==== Proof.RefIsSpec.lean ====
/-
  The reference program computes the specification.

  The reference cuts the last axis of `x : [8, 2048, 128, 16]` into five consecutive slices of widths 1, 4, 6, 4, 1
  (offsets 0, 1, 5, 11, 15), multiplies each slice by its own weight (contracting the slice's last axis against the
  weight's second axis), adds the bias broadcast along the leading axes, and joins the five results along the last
  axis. Read at an index `(B, S, P, o)`, the joined array is the piece whose span holds `o`, at `o` less the piece's
  offset; and each piece, read at an index, is the sum over `k` of `x[B, S, P, lo + k] * w[o, k]`, plus `b[o]`: the
  specification's `grade`. So the two arrays agree index by index.
-/
import proofs.«162412_j34892314313418_2_alg».proof.Proof.Spec
import proofs.«162412_j34892314313418_2_alg».proof.Proof.Gen.ReferenceIdeal.Read

noncomputable section

namespace GradeLinear.Ref

open Cert.ReferenceIdeal Cert.ReferenceIdeal.Read Idealize.ShloMosaic Idealize.ShloMosaic.ValueIdx

/-! ## Each piece, read at an index, is the specification's grade

  In each of the five lemmas: the sum is read off the product's two index functions, which agree with the
  specification's coordinate by coordinate (the slice adds its offset on the last axis; the weight is read at row `o`,
  column `k`), and the bias is read through its two broadcasts at entry `o`. -/

/-- Grade 0 (width 1, offset 0). -/
theorem v4_at (x0 : (⟨S8x2048x128x16, .f32⟩ : BufTy).Contents (Elt Ideal)) (x1 : (⟨S1x1, .f32⟩ : BufTy).Contents (Elt Ideal)) (x2 : (⟨S1, .f32⟩ : BufTy).Contents (Elt Ideal))
    (B : Fin 8) (S : Fin 2048) (P : Fin 128) (o : Fin 1) :
    val_main_v4 (F := Ideal) x0 x1 x2 (ix4 B S P o) = grade 1 0 (by omega) x0 x1 x2 B S P o := by
  rw [val_main_v4_apply, val_main_v1_apply, val_main_v3_apply, val_main_v2_apply, Ideal.addf_def]
  unfold grade
  refine congrArg₂ (fun a b : EReal => a + b) (Finset.sum_congr rfl fun k _ => ?_) (congrArg x2 (funext fun a => ?_))
  · rw [val_main_v0_apply]
    refine congrArg₂ (fun a b : EReal => a * b) (congrArg x0 (funext fun a => ?_)) (congrArg x1 (funext fun a => ?_))
    · match a with
      | ⟨0, _⟩ => rfl
      | ⟨1, _⟩ => rfl
      | ⟨2, _⟩ => rfl
      | ⟨3, _⟩ => exact Fin.ext (Nat.zero_add k.val).symm
    · match a with
      | ⟨0, _⟩ => rfl
      | ⟨1, _⟩ => rfl
  · match a with
    | ⟨0, _⟩ => exact Fin.ext (by have h := o.isLt; show 0 = o.val; omega)

/-- Grade 1 (width 4, offset 1). -/
theorem v9_at (x0 : (⟨S8x2048x128x16, .f32⟩ : BufTy).Contents (Elt Ideal)) (x3 : (⟨S4x4, .f32⟩ : BufTy).Contents (Elt Ideal)) (x4 : (⟨S4, .f32⟩ : BufTy).Contents (Elt Ideal))
    (B : Fin 8) (S : Fin 2048) (P : Fin 128) (o : Fin 4) :
    val_main_v9 (F := Ideal) x0 x3 x4 (ix4 B S P o) = grade 4 1 (by omega) x0 x3 x4 B S P o := by
  rw [val_main_v9_apply, val_main_v6_apply, val_main_v8_apply, val_main_v7_apply, Ideal.addf_def]
  unfold grade
  refine congrArg₂ (fun a b : EReal => a + b) (Finset.sum_congr rfl fun k _ => ?_) (congrArg x4 (funext fun a => ?_))
  · rw [val_main_v5_apply]
    refine congrArg₂ (fun a b : EReal => a * b) (congrArg x0 (funext fun a => ?_)) (congrArg x3 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
  · match a with
    | ⟨0, _⟩ => rfl

/-- Grade 2 (width 6, offset 5). -/
theorem v14_at (x0 : (⟨S8x2048x128x16, .f32⟩ : BufTy).Contents (Elt Ideal)) (x5 : (⟨S6x6, .f32⟩ : BufTy).Contents (Elt Ideal)) (x6 : (⟨S6, .f32⟩ : BufTy).Contents (Elt Ideal))
    (B : Fin 8) (S : Fin 2048) (P : Fin 128) (o : Fin 6) :
    val_main_v14 (F := Ideal) x0 x5 x6 (ix4 B S P o) = grade 6 5 (by omega) x0 x5 x6 B S P o := by
  rw [val_main_v14_apply, val_main_v11_apply, val_main_v13_apply, val_main_v12_apply, Ideal.addf_def]
  unfold grade
  refine congrArg₂ (fun a b : EReal => a + b) (Finset.sum_congr rfl fun k _ => ?_) (congrArg x6 (funext fun a => ?_))
  · rw [val_main_v10_apply]
    refine congrArg₂ (fun a b : EReal => a * b) (congrArg x0 (funext fun a => ?_)) (congrArg x5 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
  · match a with
    | ⟨0, _⟩ => rfl

/-- Grade 3 (width 4, offset 11). -/
theorem v19_at (x0 : (⟨S8x2048x128x16, .f32⟩ : BufTy).Contents (Elt Ideal)) (x7 : (⟨S4x4, .f32⟩ : BufTy).Contents (Elt Ideal)) (x8 : (⟨S4, .f32⟩ : BufTy).Contents (Elt Ideal))
    (B : Fin 8) (S : Fin 2048) (P : Fin 128) (o : Fin 4) :
    val_main_v19 (F := Ideal) x0 x7 x8 (ix4 B S P o) = grade 4 11 (by omega) x0 x7 x8 B S P o := by
  rw [val_main_v19_apply, val_main_v16_apply, val_main_v18_apply, val_main_v17_apply, Ideal.addf_def]
  unfold grade
  refine congrArg₂ (fun a b : EReal => a + b) (Finset.sum_congr rfl fun k _ => ?_) (congrArg x8 (funext fun a => ?_))
  · rw [val_main_v15_apply]
    refine congrArg₂ (fun a b : EReal => a * b) (congrArg x0 (funext fun a => ?_)) (congrArg x7 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
  · match a with
    | ⟨0, _⟩ => rfl

/-- Grade 4 (width 1, offset 15). -/
theorem v24_at (x0 : (⟨S8x2048x128x16, .f32⟩ : BufTy).Contents (Elt Ideal)) (x9 : (⟨S1x1, .f32⟩ : BufTy).Contents (Elt Ideal)) (x10 : (⟨S1, .f32⟩ : BufTy).Contents (Elt Ideal))
    (B : Fin 8) (S : Fin 2048) (P : Fin 128) (o : Fin 1) :
    val_main_v24 (F := Ideal) x0 x9 x10 (ix4 B S P o) = grade 1 15 (by omega) x0 x9 x10 B S P o := by
  rw [val_main_v24_apply, val_main_v21_apply, val_main_v23_apply, val_main_v22_apply, Ideal.addf_def]
  unfold grade
  refine congrArg₂ (fun a b : EReal => a + b) (Finset.sum_congr rfl fun k _ => ?_) (congrArg x10 (funext fun a => ?_))
  · rw [val_main_v20_apply]
    refine congrArg₂ (fun a b : EReal => a * b) (congrArg x0 (funext fun a => ?_)) (congrArg x9 (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
  · match a with
    | ⟨0, _⟩ => exact Fin.ext (by have h := o.isLt; show 0 = o.val; omega)

/-! ## The joined array is the specification -/

/-- The reference's result is the specification's array `G`: at `(B, S, P, o)` the concatenation reads the piece whose span
    holds `o`, at `o` less the piece's offset, and that piece there is the grade `o` falls in. -/
theorem ref_eq (x0 : (⟨S8x2048x128x16, .f32⟩ : BufTy).Contents (Elt Ideal)) (x1 : (⟨S1x1, .f32⟩ : BufTy).Contents (Elt Ideal)) (x2 : (⟨S1, .f32⟩ : BufTy).Contents (Elt Ideal)) (x3 : (⟨S4x4, .f32⟩ : BufTy).Contents (Elt Ideal)) (x4 : (⟨S4, .f32⟩ : BufTy).Contents (Elt Ideal)) (x5 : (⟨S6x6, .f32⟩ : BufTy).Contents (Elt Ideal)) (x6 : (⟨S6, .f32⟩ : BufTy).Contents (Elt Ideal)) (x7 : (⟨S4x4, .f32⟩ : BufTy).Contents (Elt Ideal)) (x8 : (⟨S4, .f32⟩ : BufTy).Contents (Elt Ideal)) (x9 : (⟨S1x1, .f32⟩ : BufTy).Contents (Elt Ideal)) (x10 : (⟨S1, .f32⟩ : BufTy).Contents (Elt Ideal)) :
    Cert.ReferenceIdeal.Read.val_main_v25 (F := Ideal) x0 x1 x2 x3 x4 x5 x6 x7 x8 x9 x10 = GradeLinear.G x0 x1 x2 x3 x4 x5 x6 x7 x8 x9 x10 := by
  funext i
  obtain ⟨B, S, P, o, rfl⟩ : ∃ (B : Fin 8) (S : Fin 2048) (P : Fin 128) (o : Fin 16), i = ix4 B S P o :=
    ⟨i 0, i 1, i 2, i 3, eq_ix4 i⟩
  rw [G_apply]
  unfold val_main_v25 entry
  have ho := o.isLt
  by_cases h0 : o.val < 1
  · rw [dif_pos h0]
    refine (concatenate_apply_piece (3 : Fin S8x2048x128x16.rank) _ _ (ix4 B S P o) 0 (by show 0 < 5; omega) S8x2048x128x1
      (val_main_v4 (F := Ideal) x0 x1 x2) rfl rfl 0 rfl (ix4 B S P (⟨o.val - 0, by omega⟩ : Fin 1)) ?_ ?_).trans
      (v4_at x0 x1 x2 B S P _)
    · intro b hb
      match b, hb with
      | ⟨0, _⟩, _ => rfl
      | ⟨1, _⟩, _ => rfl
      | ⟨2, _⟩, _ => rfl
      | ⟨3, _⟩, hb => exact absurd rfl hb
    · show 0 + (o.val - 0) = o.val
      omega
  · rw [dif_neg h0]
    by_cases h1 : o.val < 5
    · rw [dif_pos h1]
      refine (concatenate_apply_piece (3 : Fin S8x2048x128x16.rank) _ _ (ix4 B S P o) 1 (by show 1 < 5; omega) S8x2048x128x4
        (val_main_v9 (F := Ideal) x0 x3 x4) rfl rfl 1 rfl (ix4 B S P (⟨o.val - 1, by omega⟩ : Fin 4)) ?_ ?_).trans
        (v9_at x0 x3 x4 B S P _)
      · intro b hb
        match b, hb with
        | ⟨0, _⟩, _ => rfl
        | ⟨1, _⟩, _ => rfl
        | ⟨2, _⟩, _ => rfl
        | ⟨3, _⟩, hb => exact absurd rfl hb
      · show 1 + (o.val - 1) = o.val
        omega
    · rw [dif_neg h1]
      by_cases h2 : o.val < 11
      · rw [dif_pos h2]
        refine (concatenate_apply_piece (3 : Fin S8x2048x128x16.rank) _ _ (ix4 B S P o) 2 (by show 2 < 5; omega) S8x2048x128x6
          (val_main_v14 (F := Ideal) x0 x5 x6) rfl rfl 5 rfl (ix4 B S P (⟨o.val - 5, by omega⟩ : Fin 6)) ?_ ?_).trans
          (v14_at x0 x5 x6 B S P _)
        · intro b hb
          match b, hb with
          | ⟨0, _⟩, _ => rfl
          | ⟨1, _⟩, _ => rfl
          | ⟨2, _⟩, _ => rfl
          | ⟨3, _⟩, hb => exact absurd rfl hb
        · show 5 + (o.val - 5) = o.val
          omega
      · rw [dif_neg h2]
        by_cases h3 : o.val < 15
        · rw [dif_pos h3]
          refine (concatenate_apply_piece (3 : Fin S8x2048x128x16.rank) _ _ (ix4 B S P o) 3 (by show 3 < 5; omega) S8x2048x128x4
            (val_main_v19 (F := Ideal) x0 x7 x8) rfl rfl 11 rfl (ix4 B S P (⟨o.val - 11, by omega⟩ : Fin 4)) ?_ ?_).trans
            (v19_at x0 x7 x8 B S P _)
          · intro b hb
            match b, hb with
            | ⟨0, _⟩, _ => rfl
            | ⟨1, _⟩, _ => rfl
            | ⟨2, _⟩, _ => rfl
            | ⟨3, _⟩, hb => exact absurd rfl hb
          · show 11 + (o.val - 11) = o.val
            omega
        · rw [dif_neg h3]
          refine (concatenate_apply_piece (3 : Fin S8x2048x128x16.rank) _ _ (ix4 B S P o) 4 (by show 4 < 5; omega) S8x2048x128x1
            (val_main_v24 (F := Ideal) x0 x9 x10) rfl rfl 15 rfl (ix4 B S P (⟨o.val - 15, by omega⟩ : Fin 1)) ?_ ?_).trans
            (v24_at x0 x9 x10 B S P _)
          · intro b hb
            match b, hb with
            | ⟨0, _⟩, _ => rfl
            | ⟨1, _⟩, _ => rfl
            | ⟨2, _⟩, _ => rfl
            | ⟨3, _⟩, hb => exact absurd rfl hb
          · show 15 + (o.val - 15) = o.val
            omega

end GradeLinear.Ref

end
-- ==== Proof.lean ====
/-
  The proof of `Cert.Claim`: the three frames, `preserves` (the idealization rewrote nothing), and the two idealized programs
  equal over the extended reals.

  The kernel re-lays `x : [8, 2048, 128, 16]` as 262144 rows of 128 and multiplies each row by `I₈ ⊗ M`, where `M` is the 16 × 16
  block-diagonal matrix holding the transposed weight of each grade (widths 1, 4, 6, 4, 1) on its diagonal and zeros elsewhere,
  then adds the five biases joined and repeated 8 times. The reference computes each grade by itself — the grade's entries of a row
  against the grade's weight, plus the grade's bias — and joins the five results. Entry `(B, S, P, o)` of the kernel's result is a
  128-term sum in which every term outside the 16 entries of row `(B, S, P)`, and among those every term outside `o`'s grade, has a
  zero factor; a product with a zero factor is zero on the extended reals whatever the other factor, and dropping zero terms
  from a finite sum needs no finiteness. What remains is the reference's sum, term by term.
-/
import proofs.«162412_j34892314313418_2_alg».proof.Defs
import proofs.«162412_j34892314313418_2_alg».proof.Proof.Gen.Kernel
import proofs.«162412_j34892314313418_2_alg».proof.Proof.Gen.KernelIdeal
import proofs.«162412_j34892314313418_2_alg».proof.Proof.Gen.ReferenceIdeal
import proofs.«162412_j34892314313418_2_alg».proof.Proof.Gen.Pre_finite_inputs
import proofs.«162412_j34892314313418_2_alg».proof.Proof.Gen.ReferenceIdeal.Run
import proofs.«162412_j34892314313418_2_alg».proof.Proof.Gen.ReferenceIdeal.Read
import proofs.«162412_j34892314313418_2_alg».proof.Proof.KernelFrame
import proofs.«162412_j34892314313418_2_alg».proof.Proof.KernelIdealFrame
import proofs.«162412_j34892314313418_2_alg».proof.Proof.KernelIdealValue
import proofs.«162412_j34892314313418_2_alg».proof.Proof.KernelIdealHost
import proofs.«162412_j34892314313418_2_alg».proof.Proof.BridgeGrades
import proofs.«162412_j34892314313418_2_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the block-diagonal linear map of the argument arrays, entry by entry. -/
theorem algebraic : Cert.algebraic_KernelIdeal_ReferenceIdeal := by
  intro m ρ m' ρ' _ hagree
  refine ⟨fun c => GradeLinear.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun _ h c => ⟨(h c).1.trans ?_, (h c).2⟩) (Cert.KernelIdeal.HandValue.run m ρ)
    rw [Cert.KernelIdeal.HostTerms.V_rows, Cert.KernelIdeal.HostTerms.V_mat, Cert.KernelIdeal.HostTerms.V_bias]
    exact Cert.KernelIdeal.Bridge.kernel_is_G _ _ _ _ _ _ _ _ _ _ _
  · refine (θ_run Cert.ReferenceIdeal.defs _ _).mono (fun _ h c => ⟨(h c).1.trans ?_, (h c).2⟩)
      (Cert.ReferenceIdeal.Value.run (F := Ideal) m' ρ')
    refine ((Cert.ReferenceIdeal.Read.val_main_v25_eq (F := Ideal) _ _ _ _ _ _ _ _ _ _ _).trans (GradeLinear.Ref.ref_eq _ _ _ _ _ _ _ _ _ _ _)).trans ?_
    obtain ⟨e0, e1, e2, e3, e4, e5, e6, e7, e8, e9, e10⟩ := hagree c
    rw [e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
